-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S4x256x256 : Shape := ⟨3, ![4, 256, 256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg4 : FVec F S4x256x256 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256x256 .f32 := Host.absf main_arg4
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  main_v23

def fn {F : FTy → Type} [FloatOps F] (main_arg0 : FVec F S32768x1024 .f32) (main_arg1 : FVec F S4x256x256 .f32) (main_arg2 : FVec F S4x256x256 .f32) (main_arg3 : FVec F S4x256x256 .f32) (main_arg4 : FVec F S4x256x256 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_v13 main_v16
-- ==== Kernel.lean ====
abbrev S32768x1024 : Shape := ⟨2, ![32768, 1024]⟩
abbrev S4x256x256 : Shape := ⟨3, ![4, 256, 256]⟩
abbrev S1x256x256 : Shape := ⟨3, ![1, 256, 256]⟩
abbrev S256x256 : Shape := ⟨2, ![256, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 83
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S1x256x256, .f32⟩
  | .hbm, ⟨6, _⟩ => ⟨S256x256, .f32⟩
  | .hbm, ⟨7, _⟩ => ⟨S1x256x256, .f32⟩
  | .hbm, ⟨8, _⟩ => ⟨S256x256, .f32⟩
  | .hbm, ⟨9, _⟩ => ⟨S1x256x256, .f32⟩
  | .hbm, ⟨10, _⟩ => ⟨S256x256, .f32⟩
  | .hbm, ⟨11, _⟩ => ⟨S1x256x256, .f32⟩
  | .hbm, ⟨12, _⟩ => ⟨S256x256, .f32⟩
  | .hbm, ⟨13, _⟩ => ⟨S256x1024, .f32⟩
  | .hbm, ⟨14, _⟩ => ⟨S256x256, .f32⟩
  | .hbm, ⟨15, _⟩ => ⟨S256x256, .f32⟩
  | .hbm, ⟨16, _⟩ => ⟨S256x1024, .f32⟩
  | .hbm, ⟨17, _⟩ => ⟨S256x256, .f32⟩
  | .hbm, ⟨18, _⟩ => ⟨S256x256, .f32⟩
  | .hbm, ⟨19, _⟩ => ⟨S256x1024, .f32⟩
  | .hbm, ⟨20, _⟩ => ⟨S256x256, .f32⟩
  | .hbm, ⟨21, _⟩ => ⟨S256x256, .f32⟩
  | .hbm, ⟨22, _⟩ => ⟨S256x1024, .f32⟩
  | .hbm, ⟨23, _⟩ => ⟨S1024x1024, .f32⟩
  | .hbm, ⟨24, _⟩ => ⟨S1x256x256, .f32⟩
  | .hbm, ⟨25, _⟩ => ⟨S256x256, .f32⟩
  | .hbm, ⟨26, _⟩ => ⟨S1x256x256, .f32⟩
  | .hbm, ⟨27, _⟩ => ⟨S256x256, .f32⟩
  | .hbm, ⟨28, _⟩ => ⟨S1x256x256, .f32⟩
  | .hbm, ⟨29, _⟩ => ⟨S256x256, .f32⟩
  | .hbm, ⟨30, _⟩ => ⟨S1x256x256, .f32⟩
  | .hbm, ⟨31, _⟩ => ⟨S256x256, .f32⟩
  | .hbm, ⟨32, _⟩ => ⟨S256x1024, .f32⟩
  | .hbm, ⟨33, _⟩ => ⟨S256x256, .f32⟩
  | .hbm, ⟨34, _⟩ => ⟨S256x256, .f32⟩
  | .hbm, ⟨35, _⟩ => ⟨S256x1024, .f32⟩
  | .hbm, ⟨36, _⟩ => ⟨S256x256, .f32⟩
  | .hbm, ⟨37, _⟩ => ⟨S256x256, .f32⟩
  | .hbm, ⟨38, _⟩ => ⟨S256x1024, .f32⟩
  | .hbm, ⟨39, _⟩ => ⟨S256x256, .f32⟩
  | .hbm, ⟨40, _⟩ => ⟨S256x256, .f32⟩
  | .hbm, ⟨41, _⟩ => ⟨S256x1024, .f32⟩
  | .hbm, ⟨42, _⟩ => ⟨S1024x1024, .f32⟩
  | .hbm, ⟨43, _⟩ => ⟨S1x256x256, .f32⟩
  | .hbm, ⟨44, _⟩ => ⟨S256x256, .f32⟩
  | .hbm, ⟨45, _⟩ => ⟨S1x256x256, .f32⟩
  | .hbm, ⟨46, _⟩ => ⟨S256x256, .f32⟩
  | .hbm, ⟨47, _⟩ => ⟨S1x256x256, .f32⟩
  | .hbm, ⟨48, _⟩ => ⟨S256x256, .f32⟩
  | .hbm, ⟨49, _⟩ => ⟨S1x256x256, .f32⟩
  | .hbm, ⟨50, _⟩ => ⟨S256x256, .f32⟩
  | .hbm, ⟨51, _⟩ => ⟨S256x1024, .f32⟩
  | .hbm, ⟨52, _⟩ => ⟨S256x256, .f32⟩
  | .hbm, ⟨53, _⟩ => ⟨S256x256, .f32⟩
  | .hbm, ⟨54, _⟩ => ⟨S256x1024, .f32⟩
  | .hbm, ⟨55, _⟩ => ⟨S256x256, .f32⟩
  | .hbm, ⟨56, _⟩ => ⟨S256x256, .f32⟩
  | .hbm, ⟨57, _⟩ => ⟨S256x1024, .f32⟩
  | .hbm, ⟨58, _⟩ => ⟨S256x256, .f32⟩
  | .hbm, ⟨59, _⟩ => ⟨S256x256, .f32⟩
  | .hbm, ⟨60, _⟩ => ⟨S256x1024, .f32⟩
  | .hbm, ⟨61, _⟩ => ⟨S1024x1024, .f32⟩
  | .hbm, ⟨62, _⟩ => ⟨S1x256x256, .f32⟩
  | .hbm, ⟨63, _⟩ => ⟨S256x256, .f32⟩
  | .hbm, ⟨64, _⟩ => ⟨S1x256x256, .f32⟩
  | .hbm, ⟨65, _⟩ => ⟨S256x256, .f32⟩
  | .hbm, ⟨66, _⟩ => ⟨S1x256x256, .f32⟩
  | .hbm, ⟨67, _⟩ => ⟨S256x256, .f32⟩
  | .hbm, ⟨68, _⟩ => ⟨S1x256x256, .f32⟩
  | .hbm, ⟨69, _⟩ => ⟨S256x256, .f32⟩
  | .hbm, ⟨70, _⟩ => ⟨S256x1024, .f32⟩
  | .hbm, ⟨71, _⟩ => ⟨S256x256, .f32⟩
  | .hbm, ⟨72, _⟩ => ⟨S256x256, .f32⟩
  | .hbm, ⟨73, _⟩ => ⟨S256x1024, .f32⟩
  | .hbm, ⟨74, _⟩ => ⟨S256x256, .f32⟩
  | .hbm, ⟨75, _⟩ => ⟨S256x256, .f32⟩
  | .hbm, ⟨76, _⟩ => ⟨S256x1024, .f32⟩
  | .hbm, ⟨77, _⟩ => ⟨S256x256, .f32⟩
  | .hbm, ⟨78, _⟩ => ⟨S256x256, .f32⟩
  | .hbm, ⟨79, _⟩ => ⟨S256x1024, .f32⟩
  | .hbm, ⟨80, _⟩ => ⟨S1024x1024, .f32⟩
  | .hbm, ⟨81, _⟩ => ⟨S32768x1024, .f32⟩
  | .hbm, ⟨82, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76_0 : Ref sig .tc := ⟨.hbm, 81, rfl⟩
abbrev main_v76_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S4x256x256_S1x256x256_0_0_0 : S4x256x256.Slices ![0, 0, 0] S1x256x256
  shapeCasts_S1x256x256_S256x256 : S1x256x256.ShapeCasts S256x256
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  concatenates_S256x256_S256x256_S256x256_S256x256_S256x1024_d1 : Shape.Concatenates [S256x256, S256x256, S256x256, S256x256] S256x1024 1
  concatenates_S256x1024_S256x1024_S256x1024_S256x1024_S1024x1024_d0 : Shape.Concatenates [S256x1024, S256x1024, S256x1024, S256x1024] S1024x1024 0
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  concatenates_S512x256_S512x256_S512x256_S512x256_S512x1024_d1 : Shape.Concatenates [S512x256, S512x256, S512x256, S512x256] S512x1024 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v76_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S4x256x256 : Shape := ⟨3, ![4, 256, 256]⟩
abbrev S32768x256 : Shape := ⟨2, ![32768, 256]⟩
abbrev S1x256x256 : Shape := ⟨3, ![1, 256, 256]⟩
abbrev S256x256 : Shape := ⟨2, ![256, 256]⟩
abbrev S_ : Shape := ⟨0, ![]⟩

abbrev nBuf : Space → Nat
  | .hbm => 266
  | .vmem => 0
  | .smem => 0
  | _ => 0

abbrev hbmTy0_0 (i : Nat) : BufTy := match i % 128 with
  | 0 => ⟨S32768x1024, .f32⟩
  | 1 => ⟨S4x256x256, .f32⟩
  | 2 => ⟨S4x256x256, .f32⟩
  | 3 => ⟨S4x256x256, .f32⟩
  | 4 => ⟨S4x256x256, .f32⟩
  | 5 => ⟨S32768x256, .f32⟩
  | 6 => ⟨S32768x256, .f32⟩
  | 7 => ⟨S32768x256, .f32⟩
  | 8 => ⟨S32768x256, .f32⟩
  | 9 => ⟨S1x256x256, .f32⟩
  | 10 => ⟨S256x256, .f32⟩
  | 11 => ⟨S1x256x256, .f32⟩
  | 12 => ⟨S256x256, .f32⟩
  | 13 => ⟨S1x256x256, .f32⟩
  | 14 => ⟨S256x256, .f32⟩
  | 15 => ⟨S1x256x256, .f32⟩
  | 16 => ⟨S256x256, .f32⟩
  | 17 => ⟨S32768x256, .f32⟩
  | 18 => ⟨S32768x256, .f32⟩
  | 19 => ⟨S32768x256, .f32⟩
  | 20 => ⟨S32768x256, .f32⟩
  | 21 => ⟨S32768x256, .f32⟩
  | 22 => ⟨S32768x256, .f32⟩
  | 23 => ⟨S32768x256, .f32⟩
  | 24 => ⟨S32768x256, .f32⟩
  | 25 => ⟨S32768x256, .f32⟩
  | 26 => ⟨S32768x256, .f32⟩
  | 27 => ⟨S32768x256, .f32⟩
  | 28 => ⟨S32768x256, .f32⟩
  | 29 => ⟨S32768x256, .f32⟩
  | 30 => ⟨S32768x256, .f32⟩
  | 31 => ⟨S32768x256, .f32⟩
  | 32 => ⟨S32768x256, .f32⟩
  | 33 => ⟨S32768x256, .f32⟩
  | 34 => ⟨S32768x256, .f32⟩
  | 35 => ⟨S32768x256, .f32⟩
  | 36 => ⟨S32768x256, .f32⟩
  | 37 => ⟨S32768x256, .f32⟩
  | 38 => ⟨S32768x256, .f32⟩
  | 39 => ⟨S32768x256, .f32⟩
  | 40 => ⟨S32768x256, .f32⟩
  | 41 => ⟨S32768x256, .f32⟩
  | 42 => ⟨S32768x256, .f32⟩
  | 43 => ⟨S32768x256, .f32⟩
  | 44 => ⟨S32768x256, .f32⟩
  | 45 => ⟨S32768x1024, .f32⟩
  | 46 => ⟨S32768x256, .f32⟩
  | 47 => ⟨S32768x256, .f32⟩
  | 48 => ⟨S32768x256, .f32⟩
  | 49 => ⟨S32768x256, .f32⟩
  | 50 => ⟨S1x256x256, .f32⟩
  | 51 => ⟨S256x256, .f32⟩
  | 52 => ⟨S1x256x256, .f32⟩
  | 53 => ⟨S256x256, .f32⟩
  | 54 => ⟨S1x256x256, .f32⟩
  | 55 => ⟨S256x256, .f32⟩
  | 56 => ⟨S1x256x256, .f32⟩
  | 57 => ⟨S256x256, .f32⟩
  | 58 => ⟨S32768x256, .f32⟩
  | 59 => ⟨S32768x256, .f32⟩
  | 60 => ⟨S32768x256, .f32⟩
  | 61 => ⟨S32768x256, .f32⟩
  | 62 => ⟨S32768x256, .f32⟩
  | 63 => ⟨S32768x256, .f32⟩
  | 64 => ⟨S32768x256, .f32⟩
  | 65 => ⟨S32768x256, .f32⟩
  | 66 => ⟨S32768x256, .f32⟩
  | 67 => ⟨S32768x256, .f32⟩
  | 68 => ⟨S32768x256, .f32⟩
  | 69 => ⟨S32768x256, .f32⟩
  | 70 => ⟨S32768x256, .f32⟩
  | 71 => ⟨S32768x256, .f32⟩
  | 72 => ⟨S32768x256, .f32⟩
  | 73 => ⟨S32768x256, .f32⟩
  | 74 => ⟨S32768x256, .f32⟩
  | 75 => ⟨S32768x256, .f32⟩
  | 76 => ⟨S32768x256, .f32⟩
  | 77 => ⟨S32768x256, .f32⟩
  | 78 => ⟨S32768x256, .f32⟩
  | 79 => ⟨S32768x256, .f32⟩
  | 80 => ⟨S32768x256, .f32⟩
  | 81 => ⟨S32768x256, .f32⟩
  | 82 => ⟨S32768x256, .f32⟩
  | 83 => ⟨S32768x256, .f32⟩
  | 84 => ⟨S32768x256, .f32⟩
  | 85 => ⟨S32768x256, .f32⟩
  | 86 => ⟨S32768x1024, .f32⟩
  | 87 => ⟨S_, .f32⟩
  | 88 => ⟨S32768x1024, .f32⟩
  | 89 => ⟨S32768x1024, .f32⟩
  | 90 => ⟨S32768x256, .f32⟩
  | 91 => ⟨S32768x256, .f32⟩
  | 92 => ⟨S32768x256, .f32⟩
  | 93 => ⟨S32768x256, .f32⟩
  | 94 => ⟨S1x256x256, .f32⟩
  | 95 => ⟨S256x256, .f32⟩
  | 96 => ⟨S1x256x256, .f32⟩
  | 97 => ⟨S256x256, .f32⟩
  | 98 => ⟨S1x256x256, .f32⟩
  | 99 => ⟨S256x256, .f32⟩
  | 100 => ⟨S1x256x256, .f32⟩
  | 101 => ⟨S256x256, .f32⟩
  | 102 => ⟨S32768x256, .f32⟩
  | 103 => ⟨S32768x256, .f32⟩
  | 104 => ⟨S32768x256, .f32⟩
  | 105 => ⟨S32768x256, .f32⟩
  | 106 => ⟨S32768x256, .f32⟩
  | 107 => ⟨S32768x256, .f32⟩
  | 108 => ⟨S32768x256, .f32⟩
  | 109 => ⟨S32768x256, .f32⟩
  | 110 => ⟨S32768x256, .f32⟩
  | 111 => ⟨S32768x256, .f32⟩
  | 112 => ⟨S32768x256, .f32⟩
  | 113 => ⟨S32768x256, .f32⟩
  | 114 => ⟨S32768x256, .f32⟩
  | 115 => ⟨S32768x256, .f32⟩
  | 116 => ⟨S32768x256, .f32⟩
  | 117 => ⟨S32768x256, .f32⟩
  | 118 => ⟨S32768x256, .f32⟩
  | 119 => ⟨S32768x256, .f32⟩
  | 120 => ⟨S32768x256, .f32⟩
  | 121 => ⟨S32768x256, .f32⟩
  | 122 => ⟨S32768x256, .f32⟩
  | 123 => ⟨S32768x256, .f32⟩
  | 124 => ⟨S32768x256, .f32⟩
  | 125 => ⟨S32768x256, .f32⟩
  | 126 => ⟨S32768x256, .f32⟩
  | 127 => ⟨S32768x256, .f32⟩
  | _ => ⟨S32768x1024, .f32⟩

abbrev hbmTy0_1 (i : Nat) : BufTy := match i % 128 with
  | 0 => ⟨S32768x256, .f32⟩
  | 1 => ⟨S32768x256, .f32⟩
  | 2 => ⟨S32768x1024, .f32⟩
  | 3 => ⟨S32768x256, .f32⟩
  | 4 => ⟨S32768x256, .f32⟩
  | 5 => ⟨S32768x256, .f32⟩
  | 6 => ⟨S32768x256, .f32⟩
  | 7 => ⟨S32768x256, .f32⟩
  | 8 => ⟨S32768x256, .f32⟩
  | 9 => ⟨S32768x256, .f32⟩
  | 10 => ⟨S32768x256, .f32⟩
  | 11 => ⟨S32768x256, .f32⟩
  | 12 => ⟨S32768x256, .f32⟩
  | 13 => ⟨S32768x256, .f32⟩
  | 14 => ⟨S32768x256, .f32⟩
  | 15 => ⟨S32768x256, .f32⟩
  | 16 => ⟨S32768x256, .f32⟩
  | 17 => ⟨S32768x256, .f32⟩
  | 18 => ⟨S32768x256, .f32⟩
  | 19 => ⟨S32768x256, .f32⟩
  | 20 => ⟨S32768x256, .f32⟩
  | 21 => ⟨S32768x256, .f32⟩
  | 22 => ⟨S32768x256, .f32⟩
  | 23 => ⟨S32768x256, .f32⟩
  | 24 => ⟨S32768x256, .f32⟩
  | 25 => ⟨S32768x256, .f32⟩
  | 26 => ⟨S32768x256, .f32⟩
  | 27 => ⟨S32768x256, .f32⟩
  | 28 => ⟨S32768x256, .f32⟩
  | 29 => ⟨S32768x256, .f32⟩
  | 30 => ⟨S32768x256, .f32⟩
  | 31 => ⟨S32768x256, .f32⟩
  | 32 => ⟨S32768x256, .f32⟩
  | 33 => ⟨S32768x256, .f32⟩
  | 34 => ⟨S32768x256, .f32⟩
  | 35 => ⟨S32768x256, .f32⟩
  | 36 => ⟨S32768x256, .f32⟩
  | 37 => ⟨S32768x256, .f32⟩
  | 38 => ⟨S32768x256, .f32⟩
  | 39 => ⟨S32768x1024, .f32⟩
  | 40 => ⟨S32768x256, .f32⟩
  | 41 => ⟨S32768x256, .f32⟩
  | 42 => ⟨S32768x256, .f32⟩
  | 43 => ⟨S32768x256, .f32⟩
  | 44 => ⟨S32768x256, .f32⟩
  | 45 => ⟨S32768x256, .f32⟩
  | 46 => ⟨S32768x256, .f32⟩
  | 47 => ⟨S32768x256, .f32⟩
  | 48 => ⟨S32768x256, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S32768x256, .f32⟩
  | 55 => ⟨S32768x256, .f32⟩
  | 56 => ⟨S32768x256, .f32⟩
  | 57 => ⟨S32768x256, .f32⟩
  | 58 => ⟨S32768x256, .f32⟩
  | 59 => ⟨S32768x1024, .f32⟩
  | 60 => ⟨S32768x256, .f32⟩
  | 61 => ⟨S32768x256, .f32⟩
  | 62 => ⟨S32768x256, .f32⟩
  | 63 => ⟨S32768x256, .f32⟩
  | 64 => ⟨S32768x256, .f32⟩
  | 65 => ⟨S32768x256, .f32⟩
  | 66 => ⟨S32768x256, .f32⟩
  | 67 => ⟨S32768x256, .f32⟩
  | 68 => ⟨S32768x256, .f32⟩
  | 69 => ⟨S32768x256, .f32⟩
  | 70 => ⟨S32768x256, .f32⟩
  | 71 => ⟨S32768x256, .f32⟩
  | 72 => ⟨S32768x256, .f32⟩
  | 73 => ⟨S32768x256, .f32⟩
  | 74 => ⟨S32768x256, .f32⟩
  | 75 => ⟨S32768x256, .f32⟩
  | 76 => ⟨S32768x256, .f32⟩
  | 77 => ⟨S32768x256, .f32⟩
  | 78 => ⟨S32768x256, .f32⟩
  | 79 => ⟨S32768x256, .f32⟩
  | 80 => ⟨S32768x256, .f32⟩
  | 81 => ⟨S32768x256, .f32⟩
  | 82 => ⟨S32768x256, .f32⟩
  | 83 => ⟨S32768x256, .f32⟩
  | 84 => ⟨S32768x256, .f32⟩
  | 85 => ⟨S32768x256, .f32⟩
  | 86 => ⟨S32768x256, .f32⟩
  | 87 => ⟨S32768x256, .f32⟩
  | 88 => ⟨S32768x256, .f32⟩
  | 89 => ⟨S32768x256, .f32⟩
  | 90 => ⟨S32768x256, .f32⟩
  | 91 => ⟨S32768x256, .f32⟩
  | 92 => ⟨S32768x256, .f32⟩
  | 93 => ⟨S32768x256, .f32⟩
  | 94 => ⟨S32768x256, .f32⟩
  | 95 => ⟨S32768x256, .f32⟩
  | 96 => ⟨S32768x1024, .f32⟩
  | 97 => ⟨S32768x256, .f32⟩
  | 98 => ⟨S32768x256, .f32⟩
  | 99 => ⟨S32768x256, .f32⟩
  | 100 => ⟨S32768x256, .f32⟩
  | 101 => ⟨S1x256x256, .f32⟩
  | 102 => ⟨S256x256, .f32⟩
  | 103 => ⟨S1x256x256, .f32⟩
  | 104 => ⟨S256x256, .f32⟩
  | 105 => ⟨S1x256x256, .f32⟩
  | 106 => ⟨S256x256, .f32⟩
  | 107 => ⟨S1x256x256, .f32⟩
  | 108 => ⟨S256x256, .f32⟩
  | 109 => ⟨S32768x256, .f32⟩
  | 110 => ⟨S32768x256, .f32⟩
  | 111 => ⟨S32768x256, .f32⟩
  | 112 => ⟨S32768x256, .f32⟩
  | 113 => ⟨S32768x256, .f32⟩
  | 114 => ⟨S32768x256, .f32⟩
  | 115 => ⟨S32768x256, .f32⟩
  | 116 => ⟨S32768x256, .f32⟩
  | 117 => ⟨S32768x256, .f32⟩
  | 118 => ⟨S32768x256, .f32⟩
  | 119 => ⟨S32768x256, .f32⟩
  | 120 => ⟨S32768x256, .f32⟩
  | 121 => ⟨S32768x256, .f32⟩
  | 122 => ⟨S32768x256, .f32⟩
  | 123 => ⟨S32768x256, .f32⟩
  | 124 => ⟨S32768x256, .f32⟩
  | 125 => ⟨S32768x256, .f32⟩
  | 126 => ⟨S32768x256, .f32⟩
  | 127 => ⟨S32768x256, .f32⟩
  | _ => ⟨S32768x1024, .f32⟩

abbrev hbmTy0_2 (i : Nat) : BufTy := match i % 128 with
  | 0 => ⟨S32768x256, .f32⟩
  | 1 => ⟨S32768x256, .f32⟩
  | 2 => ⟨S32768x256, .f32⟩
  | 3 => ⟨S32768x256, .f32⟩
  | 4 => ⟨S32768x256, .f32⟩
  | 5 => ⟨S32768x256, .f32⟩
  | 6 => ⟨S32768x256, .f32⟩
  | 7 => ⟨S32768x256, .f32⟩
  | 8 => ⟨S32768x256, .f32⟩
  | 9 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_cst : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_cst_0 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩

abbrev nD : Nat := 1
abbrev τ : Topo := Topo.v7x

variable {F : FTy → Type} [FloatOps F]

class Facts₀ : Prop where
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  slices_S4x256x256_S1x256x256_0_0_0 : S4x256x256.Slices ![0, 0, 0] S1x256x256
  shapeCasts_S1x256x256_S256x256 : S1x256x256.ShapeCasts S256x256
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  concatenates_S32768x256_S32768x256_S32768x256_S32768x256_S32768x1024_d1 : Shape.Concatenates [S32768x256, S32768x256, S32768x256, S32768x256] S32768x1024 1
  bcast_S_S32768x1024 : S_.BroadcastsInDim S32768x1024 (![] : Fin 0 → Fin S32768x1024.rank)
  bcast_S_S32768x256 : S_.BroadcastsInDim S32768x256 (![] : Fin 0 → Fin S32768x256.rank)
  dot_S32768x256_S256x256_S32768x256_1_0_0_1_n_n_wf : DotDims.WF S32768x256 S256x256 S32768x256 [1] [0] [0] [1] [] []

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf

class Facts : Prop extends Facts₀ where

variable [Facts]
-- ==== Proof.FrameBits.lean ====
import proofs.«104706_j62654982914287_2_alg».proof.Proof.Gen.Kernel.Launch
import proofs.«104706_j62654982914287_2_alg».proof.Proof.Gen.Kernel.Skeleton
import proofs.«104706_j62654982914287_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of the program: its one region run over a grid of 64 points

The program is 76 host operations (slices, reshapes, negations, four-operand concatenations), which build
four 1024×1024 matrices out of the four argument stacks, and then one pipelined region over 64 row blocks of
the first argument, with two outputs. The body of the region is straight-line: it loads its five input blocks
whole and stores each output block whole, once. This module states what the region finds in its arrays, what
the body leaves in each output block as a function of the five input blocks, the body's triple, the proof data
of the pipeline, and the run of the whole program: every array ends at what the proof data computes, and every
argument array ends as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffer `b` holds when the region is entered: the launch contents carried through the 76 host
    operations that precede the region. -/
abbrev V (c : Dev nD) (b : Ref sig .tc) : Buf (Elt F) ((c : Thread nD τ).loc b) :=
  StableHlo.after hostOps0 (fun b => m (c, b)) (Proc.devRef .tc b)

/-- No host operation allocates a buffer. -/
theorem hostOps0_fresh : (hostOps0 : List (HloOp τ sig (Elt F))).Forall fun op => op.fresh = ∅ := by
  simp only [List.Forall]; repeat' constructor

/-- The program is its host operations followed by the region, so it reduces to the region entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Every host operation writes its own result buffer only, and no result buffer is an argument array. -/

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-! ## The windows' blocks -/

/-- The block of window `w` that point `t` works on: the window's array, at its region-entry contents, read through
    the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the pipeline fetched it there
    or not: where it did not, the block index has not moved since the last fetch (the four weight matrices, whose
    block index is constant, are fetched once), and the body leaves the buffer as it found it. Stated for any proof
    data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

/-- The whole 512×1024 block, as the rectangle every access of a row block goes through. -/
abbrev rX : Rect S512x1024 := Rect.unit (s := S512x1024) ![0, 0] S512x1024.size inb_S512x1024_S512x1024_0_0
/-- The whole 1024×1024 matrix, as the rectangle every load of a weight matrix goes through. -/
abbrev rW : Rect S1024x1024 := Rect.unit (s := S1024x1024) ![0, 0] S1024x1024.size inb_S1024x1024_S1024x1024_0_0

section Values

variable (x0 : Vec F S512x1024 .f32) (x1 x2 x3 x4 : Vec F S1024x1024 .f32)

/-! The values the first part of the body hands on, each a payload of the loaded blocks: `x0` the row block,
    `x1 … x4` the four matrices. The names follow the printed values (`a13` is `%13`, …). -/
def a8 : FVec F S1024x1024 .f32 := k0_pay2 (View.ld x4 rW)
def a13 : FVec F S512x1024 .f32 := k0_pay5 (View.ld x0 rX) (View.ld x3 rW)
def a16 : FVec F S512x256 .f32 := k0_pay8 (View.ld x0 rX) (View.ld x1 rW)
def a17 : FVec F S512x256 .f32 := k0_pay9 (View.ld x0 rX) (View.ld x1 rW)
def a18 : FVec F S512x256 .f32 := k0_pay10 (View.ld x0 rX) (View.ld x2 rW)
def a19 : FVec F S512x256 .f32 := k0_pay11 (View.ld x0 rX) (View.ld x2 rW)
def a28 : FVec F S512x256 .f32 := k0_pay14 (View.ld x0 rX) (View.ld x1 rW) (View.ld x2 rW)
def a35 : FVec F S512x256 .f32 := k0_pay15 (View.ld x0 rX) (View.ld x1 rW) (View.ld x2 rW)
def a42 : FVec F S512x256 .f32 := k0_pay16 (View.ld x0 rX) (View.ld x1 rW) (View.ld x2 rW)
def a43 : FVec F S512x256 .f32 := k0_pay17 (View.ld x0 rX) (View.ld x1 rW) (View.ld x2 rW)
def a44 : FVec F S512x256 .f32 := k0_pay18 (View.ld x0 rX) (View.ld x1 rW) (View.ld x2 rW)

/-! The values the second part hands on, payloads of the first part's. -/
def b69 : FVec F S512x1024 .f32 := k0_pay19 (a16 x0 x1) (a17 x0 x1) (a18 x0 x2) (a19 x0 x2) (a28 x0 x1 x2) (a35 x0 x1 x2) (a42 x0 x1 x2) (a43 x0 x1 x2) (a44 x0 x1 x2)
def b73 : FVec F S512x256 .f32 := k0_pay23 (a16 x0 x1) (a17 x0 x1) (a18 x0 x2) (a19 x0 x2) (a28 x0 x1 x2) (a35 x0 x1 x2) (a42 x0 x1 x2) (a43 x0 x1 x2) (a44 x0 x1 x2)
def b74 : FVec F S512x256 .f32 := k0_pay24 (a13 x0 x3)
def b84 : FVec F S512x256 .f32 := k0_pay28 (a13 x0 x3) (a16 x0 x1) (a17 x0 x1) (a18 x0 x2) (a19 x0 x2) (a28 x0 x1 x2) (a35 x0 x1 x2) (a42 x0 x1 x2) (a43 x0 x1 x2) (a44 x0 x1 x2)
def b91 : FVec F S512x256 .f32 := k0_pay29 (a13 x0 x3) (a16 x0 x1) (a17 x0 x1) (a18 x0 x2) (a19 x0 x2) (a28 x0 x1 x2) (a35 x0 x1 x2) (a42 x0 x1 x2) (a43 x0 x1 x2) (a44 x0 x1 x2)
def b98 : FVec F S512x256 .f32 := k0_pay30 (a13 x0 x3) (a16 x0 x1) (a17 x0 x1) (a18 x0 x2) (a19 x0 x2) (a28 x0 x1 x2) (a35 x0 x1 x2) (a42 x0 x1 x2) (a43 x0 x1 x2) (a44 x0 x1 x2)
def b103 : FVec F S512x256 .f32 := k0_pay31 (a13 x0 x3) (a16 x0 x1) (a17 x0 x1) (a18 x0 x2) (a19 x0 x2) (a28 x0 x1 x2) (a35 x0 x1 x2) (a42 x0 x1 x2) (a43 x0 x1 x2) (a44 x0 x1 x2)

end Values

/-- What the body leaves in the first output's staging buffer (window 5), from the five input blocks: its one
    store, of the whole block. -/
def out0_5 (x0 : Vec F S512x1024 .f32) (x1 x2 x3 x4 : Vec F S1024x1024 .f32) : Vec F S512x1024 .f32 :=
  View.canon [⟨rX, k0_pay1 (a8 x4) (b73 x0 x1 x2) (b74 x0 x3) (b84 x0 x1 x2 x3) (b91 x0 x1 x2 x3) (b98 x0 x1 x2 x3) (b103 x0 x1 x2 x3)⟩]

/-- What the body leaves in the second output's staging buffer (window 6): its one store, of the whole block. -/
def out0_6 (x0 : Vec F S512x1024 .f32) (x1 x2 x3 x4 : Vec F S1024x1024 .f32) : Vec F S512x1024 .f32 :=
  View.canon [⟨rX, b69 x0 x1 x2⟩]

/-- A store of the whole block covers the block. -/
theorem cover0_5 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem cover0_6 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The kernel body on whole staging buffers — the five inputs' at read contents `x0 … x4`, the two outputs' at
    anything — runs to the continuation holding the inputs' as they were and the outputs' at `out0_5` and `out0_6`
    of the inputs': it loads the five blocks, computes, and overwrites each output block whole. -/
theorem sound_kernel (c : Dev nD) (E : Set ℕ) (i : grid0.Coords)
    (arg1 : Memref sig .tc .vmem S512x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S512x1024 .f32) (harg6 : arg6.IsWhole)
    (arg7 : Memref sig .tc .vmem S512x1024 .f32) (harg7 : arg7.IsWhole)
    (x0 : Vec F S512x1024 .f32) (x1 x2 x3 x4 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block and each output's at `out0_5` / `out0_6` of the five input blocks; the
    invariant the plain one (nothing but the windows is touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The arrays of the proof data are what the region finds (a projection of the definition; the fold over the host
    operations is not unfolded). -/
theorem A_eq (c : Dev nD) (w : Fin cfg0.W) : (dats m 0 c).A w = V m c (Pipeline.arrRef spec0 w) := by
  dsimp only [dats]

/-! The buffer contents after the body, one window at a time (projections of the definition). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-! At every point the body finds each input window's block in that window's staging buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The resources the pipeline hands the body at point `t`: the invariant, what the core owes, and each window's
    current staging buffer at whatever it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- The resources the body must hand back: the same, each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- One point of the grid. The five input buffers hold their blocks there, so the body's triple applies with the
    blocks for `x0 … x4`; the invariant and what the core owes are carried around the body untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Hence the obligation the launch asks of the body, at every point of the grid. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and in every final state every array of the pipeline holds what the proof
    data computes — an input its entry contents, an output those overwritten block by block by what the body left —
    and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program runs, and its five argument arrays end as launched — the first, which the pipeline
    stages, because an input array is never written back; the four stacks, which no window stages, because the
    region leaves every other unscoped buffer alone; and no host operation writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel.Hand

end
-- ==== Proof.FrameIdeal.lean ====
import proofs.«104706_j62654982914287_2_alg».proof.Proof.Gen.KernelIdeal.Launch
import proofs.«104706_j62654982914287_2_alg».proof.Proof.Gen.KernelIdeal.Skeleton
import proofs.«104706_j62654982914287_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of the program: its one region run over a grid of 64 points

The program is 76 host operations (slices, reshapes, negations, four-operand concatenations), which build
four 1024×1024 matrices out of the four argument stacks, and then one pipelined region over 64 row blocks of
the first argument, with two outputs. The body of the region is straight-line: it loads its five input blocks
whole and stores each output block whole, once. This module states what the region finds in its arrays, what
the body leaves in each output block as a function of the five input blocks, the body's triple, the proof data
of the pipeline, and the run of the whole program: every array ends at what the proof data computes, and every
argument array ends as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffer `b` holds when the region is entered: the launch contents carried through the 76 host
    operations that precede the region. -/
abbrev V (c : Dev nD) (b : Ref sig .tc) : Buf (Elt F) ((c : Thread nD τ).loc b) :=
  StableHlo.after hostOps0 (fun b => m (c, b)) (Proc.devRef .tc b)

/-- No host operation allocates a buffer. -/
theorem hostOps0_fresh : (hostOps0 : List (HloOp τ sig (Elt F))).Forall fun op => op.fresh = ∅ := by
  simp only [List.Forall]; repeat' constructor

/-- The program is its host operations followed by the region, so it reduces to the region entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Every host operation writes its own result buffer only, and no result buffer is an argument array. -/

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes,
      Finset.mem_singleton]
    repeat' apply And.intro
    all_goals exact StableHlo.devRef_ne_of_ne (by decide)))

/-! ## The windows' blocks -/

/-- The block of window `w` that point `t` works on: the window's array, at its region-entry contents, read through
    the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the pipeline fetched it there
    or not: where it did not, the block index has not moved since the last fetch (the four weight matrices, whose
    block index is constant, are fetched once), and the body leaves the buffer as it found it. Stated for any proof
    data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

/-- The whole 512×1024 block, as the rectangle every access of a row block goes through. -/
abbrev rX : Rect S512x1024 := Rect.unit (s := S512x1024) ![0, 0] S512x1024.size inb_S512x1024_S512x1024_0_0
/-- The whole 1024×1024 matrix, as the rectangle every load of a weight matrix goes through. -/
abbrev rW : Rect S1024x1024 := Rect.unit (s := S1024x1024) ![0, 0] S1024x1024.size inb_S1024x1024_S1024x1024_0_0

section Values

variable (x0 : Vec F S512x1024 .f32) (x1 x2 x3 x4 : Vec F S1024x1024 .f32)

/-! The values the first part of the body hands on, each a payload of the loaded blocks: `x0` the row block,
    `x1 … x4` the four matrices. The names follow the printed values (`a13` is `%13`, …). -/
def a8 : FVec F S1024x1024 .f32 := k0_pay2 (View.ld x4 rW)
def a13 : FVec F S512x1024 .f32 := k0_pay5 (View.ld x0 rX) (View.ld x3 rW)
def a16 : FVec F S512x256 .f32 := k0_pay8 (View.ld x0 rX) (View.ld x1 rW)
def a17 : FVec F S512x256 .f32 := k0_pay9 (View.ld x0 rX) (View.ld x1 rW)
def a18 : FVec F S512x256 .f32 := k0_pay10 (View.ld x0 rX) (View.ld x2 rW)
def a19 : FVec F S512x256 .f32 := k0_pay11 (View.ld x0 rX) (View.ld x2 rW)
def a28 : FVec F S512x256 .f32 := k0_pay14 (View.ld x0 rX) (View.ld x1 rW) (View.ld x2 rW)
def a35 : FVec F S512x256 .f32 := k0_pay15 (View.ld x0 rX) (View.ld x1 rW) (View.ld x2 rW)
def a42 : FVec F S512x256 .f32 := k0_pay16 (View.ld x0 rX) (View.ld x1 rW) (View.ld x2 rW)
def a43 : FVec F S512x256 .f32 := k0_pay17 (View.ld x0 rX) (View.ld x1 rW) (View.ld x2 rW)
def a44 : FVec F S512x256 .f32 := k0_pay18 (View.ld x0 rX) (View.ld x1 rW) (View.ld x2 rW)

/-! The values the second part hands on, payloads of the first part's. -/
def b69 : FVec F S512x1024 .f32 := k0_pay19 (a16 x0 x1) (a17 x0 x1) (a18 x0 x2) (a19 x0 x2) (a28 x0 x1 x2) (a35 x0 x1 x2) (a42 x0 x1 x2) (a43 x0 x1 x2) (a44 x0 x1 x2)
def b73 : FVec F S512x256 .f32 := k0_pay23 (a16 x0 x1) (a17 x0 x1) (a18 x0 x2) (a19 x0 x2) (a28 x0 x1 x2) (a35 x0 x1 x2) (a42 x0 x1 x2) (a43 x0 x1 x2) (a44 x0 x1 x2)
def b74 : FVec F S512x256 .f32 := k0_pay24 (a13 x0 x3)
def b84 : FVec F S512x256 .f32 := k0_pay28 (a13 x0 x3) (a16 x0 x1) (a17 x0 x1) (a18 x0 x2) (a19 x0 x2) (a28 x0 x1 x2) (a35 x0 x1 x2) (a42 x0 x1 x2) (a43 x0 x1 x2) (a44 x0 x1 x2)
def b91 : FVec F S512x256 .f32 := k0_pay29 (a13 x0 x3) (a16 x0 x1) (a17 x0 x1) (a18 x0 x2) (a19 x0 x2) (a28 x0 x1 x2) (a35 x0 x1 x2) (a42 x0 x1 x2) (a43 x0 x1 x2) (a44 x0 x1 x2)
def b98 : FVec F S512x256 .f32 := k0_pay30 (a13 x0 x3) (a16 x0 x1) (a17 x0 x1) (a18 x0 x2) (a19 x0 x2) (a28 x0 x1 x2) (a35 x0 x1 x2) (a42 x0 x1 x2) (a43 x0 x1 x2) (a44 x0 x1 x2)
def b103 : FVec F S512x256 .f32 := k0_pay31 (a13 x0 x3) (a16 x0 x1) (a17 x0 x1) (a18 x0 x2) (a19 x0 x2) (a28 x0 x1 x2) (a35 x0 x1 x2) (a42 x0 x1 x2) (a43 x0 x1 x2) (a44 x0 x1 x2)

end Values

/-- What the body leaves in the first output's staging buffer (window 5), from the five input blocks: its one
    store, of the whole block. -/
def out0_5 (x0 : Vec F S512x1024 .f32) (x1 x2 x3 x4 : Vec F S1024x1024 .f32) : Vec F S512x1024 .f32 :=
  View.canon [⟨rX, k0_pay1 (a8 x4) (b73 x0 x1 x2) (b74 x0 x3) (b84 x0 x1 x2 x3) (b91 x0 x1 x2 x3) (b98 x0 x1 x2 x3) (b103 x0 x1 x2 x3)⟩]

/-- What the body leaves in the second output's staging buffer (window 6): its one store, of the whole block. -/
def out0_6 (x0 : Vec F S512x1024 .f32) (x1 x2 x3 x4 : Vec F S1024x1024 .f32) : Vec F S512x1024 .f32 :=
  View.canon [⟨rX, b69 x0 x1 x2⟩]

/-- A store of the whole block covers the block. -/
theorem cover0_5 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem cover0_6 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The body's triple -/

set_option maxHeartbeats 4000000 in
/-- The kernel body on whole staging buffers — the five inputs' at read contents `x0 … x4`, the two outputs' at
    anything — runs to the continuation holding the inputs' as they were and the outputs' at `out0_5` and `out0_6`
    of the inputs': it loads the five blocks, computes, and overwrites each output block whole. -/
theorem sound_kernel (c : Dev nD) (E : Set ℕ) (i : grid0.Coords)
    (arg1 : Memref sig .tc .vmem S512x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S1024x1024 .f32) (harg5 : arg5.IsWhole)
    (arg6 : Memref sig .tc .vmem S512x1024 .f32) (harg6 : arg6.IsWhole)
    (arg7 : Memref sig .tc .vmem S512x1024 .f32) (harg7 : arg7.IsWhole)
    (x0 : Vec F S512x1024 .f32) (x1 x2 x3 x4 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block and each output's at `out0_5` / `out0_6` of the five input blocks; the
    invariant the plain one (nothing but the windows is touched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The arrays of the proof data are what the region finds (a projection of the definition; the fold over the host
    operations is not unfolded). -/
theorem A_eq (c : Dev nD) (w : Fin cfg0.W) : (dats m 0 c).A w = V m c (Pipeline.arrRef spec0 w) := by
  dsimp only [dats]

/-! The buffer contents after the body, one window at a time (projections of the definition). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-! At every point the body finds each input window's block in that window's staging buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The resources the pipeline hands the body at point `t`: the invariant, what the core owes, and each window's
    current staging buffer at whatever it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- The resources the body must hand back: the same, each staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- One point of the grid. The five input buffers hold their blocks there, so the body's triple applies with the
    blocks for `x0 … x4`; the invariant and what the core owes are carried around the body untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Hence the obligation the launch asks of the body, at every point of the grid. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and in every final state every array of the pipeline holds what the proof
    data computes — an input its entry contents, an output those overwritten block by block by what the body left —
    and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program runs, and its five argument arrays end as launched — the first, which the pipeline
    stages, because an input array is never written back; the four stacks, which no window stages, because the
    region leaves every other unscoped buffer alone; and no host operation writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.LibConcatFour.lean ====
/-
  Four matrices with the same number of rows laid side by side — a concatenation along the column axis — read
  at one entry. The joined row is the four rows laid end to end: entry `q` belongs to the piece whose span of
  columns holds `q`, at `q` less the widths of the pieces before it. The same row count and the four widths are
  parameters, so the statement serves a block of rows inside a kernel and a whole array on the host alike.
-/
import Idealize.ShloMosaic.Lib.Pipeline.Value
import Idealize.ShloMosaic.Lib.ValueIdx

namespace Cert.Lib.ConcatFour

open Idealize.ShloMosaic Idealize.ShloMosaic.ValueIdx

variable {α : Type}

/-- Four rows of widths `n0`, `n1`, `n2`, `n3` laid end to end into one row of width `N`: entry `q` is the entry
    of the piece whose span holds `q`. -/
def join4 {n0 n1 n2 n3 N : ℕ} (hN : N = n0 + n1 + n2 + n3) (a : Fin n0 → α) (b : Fin n1 → α) (c : Fin n2 → α)
    (d : Fin n3 → α) (q : Fin N) : α :=
  if h0 : q.val < n0 then a ⟨q.val, h0⟩
  else if h1 : q.val < n0 + n1 then b ⟨q.val - n0, by omega⟩
  else if h2 : q.val < n0 + n1 + n2 then c ⟨q.val - (n0 + n1), by omega⟩
  else d ⟨q.val - (n0 + n1 + n2), by have := q.isLt; omega⟩

/-- Four matrices `[R, n0]`, `[R, n1]`, `[R, n2]`, `[R, n3]` concatenated along axis 1 into `[R, N]`, read at
    `(p, q)`: row `p` of the result is the four rows `p` laid end to end. -/
theorem concat4_apply {R n0 n1 n2 n3 N : ℕ} (hN : N = n0 + n1 + n2 + n3)
    (x0 : (⟨2, ![R, n0]⟩ : Shape).Idx → α) (x1 : (⟨2, ![R, n1]⟩ : Shape).Idx → α)
    (x2 : (⟨2, ![R, n2]⟩ : Shape).Idx → α) (x3 : (⟨2, ![R, n3]⟩ : Shape).Idx → α)
    (h : Shape.Concatenates (([⟨⟨2, ![R, n0]⟩, x0⟩, ⟨⟨2, ![R, n1]⟩, x1⟩, ⟨⟨2, ![R, n2]⟩, x2⟩, ⟨⟨2, ![R, n3]⟩, x3⟩] :
      List ((s : Shape) × (s.Idx → α))).map (·.1)) ⟨2, ![R, N]⟩ 1)
    (p : Fin R) (q : Fin N) :
    concatenate ⟨2, ![R, N]⟩ 1 [⟨⟨2, ![R, n0]⟩, x0⟩, ⟨⟨2, ![R, n1]⟩, x1⟩, ⟨⟨2, ![R, n2]⟩, x2⟩, ⟨⟨2, ![R, n3]⟩, x3⟩] h (ix2 p q)
      = join4 hN (fun j => x0 (ix2 p j)) (fun j => x1 (ix2 p j)) (fun j => x2 (ix2 p j)) (fun j => x3 (ix2 p j)) q := by
  have hoff : ∀ {n : ℕ} (e : Fin n) (b : Fin 2) (hb : b.cast (rfl : (2 : ℕ) = 2) ≠ (1 : Fin 2)),
      ((ix2 p e : (⟨2, ![R, n]⟩ : Shape).Idx) b).val = ((ix2 p q : (⟨2, ![R, N]⟩ : Shape).Idx) (b.cast rfl)).val := by
    intro n e b hb
    match b, hb with
    | ⟨0, _⟩, _ => rfl
    | ⟨1, _⟩, hb => exact absurd (Fin.ext rfl) hb
  unfold join4
  by_cases h0 : q.val < n0
  · rw [dif_pos h0]
    exact concatenate_apply_piece 1 _ h (ix2 p q) 0 (by show (0 : ℕ) < 4; omega) _ x0 rfl rfl 0 rfl (ix2 p ⟨q.val, h0⟩)
      (fun b hb => hoff _ b hb) (by show 0 + q.val = q.val; omega)
  · rw [dif_neg h0]
    by_cases h1 : q.val < n0 + n1
    · rw [dif_pos h1]
      exact concatenate_apply_piece 1 _ h (ix2 p q) 1 (by show (1 : ℕ) < 4; omega) _ x1 rfl rfl n0 rfl (ix2 p ⟨q.val - n0, by omega⟩)
        (fun b hb => hoff _ b hb) (by show n0 + (q.val - n0) = q.val; omega)
    · rw [dif_neg h1]
      by_cases h2 : q.val < n0 + n1 + n2
      · rw [dif_pos h2]
        exact concatenate_apply_piece 1 _ h (ix2 p q) 2 (by show (2 : ℕ) < 4; omega) _ x2 rfl rfl (n0 + n1) rfl
          (ix2 p ⟨q.val - (n0 + n1), by omega⟩) (fun b hb => hoff _ b hb)
          (by show n0 + n1 + (q.val - (n0 + n1)) = q.val; omega)
      · rw [dif_neg h2]
        exact concatenate_apply_piece 1 _ h (ix2 p q) 3 (by show (3 : ℕ) < 4; omega) _ x3 rfl rfl (n0 + n1 + n2)
          (by show n0 + (n1 + (n2 + 0)) = n0 + n1 + n2; omega)
          (ix2 p ⟨q.val - (n0 + n1 + n2), by have := q.isLt; omega⟩) (fun b hb => hoff _ b hb)
          (by show n0 + n1 + n2 + (q.val - (n0 + n1 + n2)) = q.val; omega)

end Cert.Lib.ConcatFour
-- ==== Proof.QSpec.lean ====
/-
  The row-wise mathematics of a quaternion dense layer followed by a quaternion attention step.

  A row of width 1024 is four quarters of width 256: the real, i, j and k components of 256 quaternions.
  Everything below acts on ONE row at a time; the weights of a layer are four 256 × 256 matrices
  (real, i, j, k), written `w a c j` with `a` the component, `c` the input coordinate, `j` the output one.

  Two descriptions of the same layer are given: sixteen products of quarters with the four small matrices,
  combined with the signs of the quaternion product (`qlin`), and ONE product of the whole row with a
  1024 × 1024 matrix built from signed copies of the four small matrices (`bigdot` with `bigW`).
  The quaternion product of two rows (`ham`) is componentwise over the 256 positions, and a row is normalised
  position by position by the length of its quaternion, computed from the sum of four squares plus a positive
  constant — once as a division by the square root (`normDiv`), once as a product with the reciprocal square
  root (`normRsqrt`).
-/
import Idealize.ShloMosaic.PureOps.Ideal
import proofs.«104706_j62654982914287_2_alg».proof.Proof.LibConcatFour

noncomputable section

namespace Cert.QSpec

open Idealize.ShloMosaic Cert.Lib.ConcatFour

variable {α : Type}

/-- Column `256·a + j` of a row of width 1024: position `j` of quarter `a`. -/
def col (a : Fin 4) (j : Fin 256) : Fin 1024 := ⟨256 * a.val + j.val, by have := a.isLt; have := j.isLt; omega⟩

/-- Quarter `a` of a row. -/
def quarter (v : Fin 1024 → α) (a : Fin 4) (j : Fin 256) : α := v (col a j)

/-- Four quarters laid end to end. -/
abbrev join (r i j k : Fin 256 → α) : Fin 1024 → α :=
  join4 (show 1024 = 256 + 256 + 256 + 256 from rfl) r i j k

/-- Quarter `a` of the row times the small matrix `b`, at output position `j`. -/
def dot (v : Fin 1024 → EReal) (w : Fin 4 → Fin 256 → Fin 256 → EReal) (a b : Fin 4) (j : Fin 256) : EReal :=
  ∑ c : Fin 256, quarter v a c * w b c j

/-- The quaternion dense layer as sixteen small products: the quaternion product of the row (as 256-vectors of
    components) with the weight quaternion (of matrices), component by component. -/
def qlin (v : Fin 1024 → EReal) (w : Fin 4 → Fin 256 → Fin 256 → EReal) : Fin 1024 → EReal :=
  join
    (fun j => dot v w 0 0 j - dot v w 1 1 j - dot v w 2 2 j - dot v w 3 3 j)
    (fun j => dot v w 0 1 j + dot v w 1 0 j - dot v w 2 3 j + dot v w 3 2 j)
    (fun j => dot v w 0 2 j + dot v w 1 3 j + dot v w 2 0 j - dot v w 3 1 j)
    (fun j => dot v w 0 3 j - dot v w 1 2 j + dot v w 2 1 j + dot v w 3 0 j)

/-- The 1024 × 1024 matrix of the same layer: a 4 × 4 grid of signed copies of the small matrices, row block `a`
    holding what quarter `a` of the input contributes to each quarter of the output. -/
def bigW (w : Fin 4 → Fin 256 → Fin 256 → EReal) (c q : Fin 1024) : EReal :=
  join
    (fun c' => join (fun j => w 0 c' j) (fun j => w 1 c' j) (fun j => w 2 c' j) (fun j => w 3 c' j) q)
    (fun c' => join (fun j => -(w 1 c' j)) (fun j => w 0 c' j) (fun j => w 3 c' j) (fun j => -(w 2 c' j)) q)
    (fun c' => join (fun j => -(w 2 c' j)) (fun j => -(w 3 c' j)) (fun j => w 0 c' j) (fun j => w 1 c' j) q)
    (fun c' => join (fun j => -(w 3 c' j)) (fun j => w 2 c' j) (fun j => -(w 1 c' j)) (fun j => w 0 c' j) q)
    c

/-- A row times a 1024 × 1024 matrix. -/
def bigdot (v : Fin 1024 → EReal) (W : Fin 1024 → Fin 1024 → EReal) (q : Fin 1024) : EReal :=
  ∑ c : Fin 1024, v c * W c q

/-- The quaternion product of two rows, position by position. -/
def ham (a b : Fin 1024 → EReal) : Fin 1024 → EReal :=
  join
    (fun j => quarter a 0 j * quarter b 0 j - quarter a 1 j * quarter b 1 j - quarter a 2 j * quarter b 2 j
      - quarter a 3 j * quarter b 3 j)
    (fun j => quarter a 0 j * quarter b 1 j + quarter a 1 j * quarter b 0 j + quarter a 2 j * quarter b 3 j
      - quarter a 3 j * quarter b 2 j)
    (fun j => quarter a 0 j * quarter b 2 j - quarter a 1 j * quarter b 3 j + quarter a 2 j * quarter b 0 j
      + quarter a 3 j * quarter b 1 j)
    (fun j => quarter a 0 j * quarter b 3 j + quarter a 1 j * quarter b 2 j - quarter a 2 j * quarter b 1 j
      + quarter a 3 j * quarter b 0 j)

/-- The squared length of the quaternion at position `j`, plus the constant `e`. -/
def sumsq (a : Fin 1024 → EReal) (e : EReal) (j : Fin 256) : EReal :=
  quarter a 0 j * quarter a 0 j + quarter a 1 j * quarter a 1 j + quarter a 2 j * quarter a 2 j
    + quarter a 3 j * quarter a 3 j + e

/-- A row normalised by division by the square root of `sumsq`. -/
def normDiv (a : Fin 1024 → EReal) (e : EReal) : Fin 1024 → EReal :=
  join (fun j => Ideal.div (quarter a 0 j) (Ideal.sqrt (sumsq a e j)))
    (fun j => Ideal.div (quarter a 1 j) (Ideal.sqrt (sumsq a e j)))
    (fun j => Ideal.div (quarter a 2 j) (Ideal.sqrt (sumsq a e j)))
    (fun j => Ideal.div (quarter a 3 j) (Ideal.sqrt (sumsq a e j)))

/-- A row normalised by the product with the reciprocal square root of `sumsq`. -/
def normRsqrt (a : Fin 1024 → EReal) (e : EReal) : Fin 1024 → EReal :=
  join (fun j => quarter a 0 j * Ideal.rsqrt (sumsq a e j))
    (fun j => quarter a 1 j * Ideal.rsqrt (sumsq a e j))
    (fun j => quarter a 2 j * Ideal.rsqrt (sumsq a e j))
    (fun j => quarter a 3 j * Ideal.rsqrt (sumsq a e j))

/-- The attention row and the output row from the sixteen-small-products layer and the division form:
    keys `qlin x wk`, queries `qlin x wq` scaled by `s`, values `qlin x wv`; the attention row is the normalised
    quaternion product of queries and keys, the output the layer `wo` of its product with the values. -/
def attDiv (x : Fin 1024 → EReal) (wq wk : Fin 4 → Fin 256 → Fin 256 → EReal) (s e : EReal) : Fin 1024 → EReal :=
  normDiv (ham (fun q => qlin x wq q * s) (qlin x wk)) e

def outDiv (x : Fin 1024 → EReal) (wq wk wv wo : Fin 4 → Fin 256 → Fin 256 → EReal) (s e : EReal) :
    Fin 1024 → EReal :=
  qlin (ham (attDiv x wq wk s e) (qlin x wv)) wo

/-- The same two rows from the one-big-product layer and the reciprocal-square-root form. -/
def attRsqrt (x : Fin 1024 → EReal) (Wq Wk : Fin 1024 → Fin 1024 → EReal) (s e : EReal) : Fin 1024 → EReal :=
  normRsqrt (ham (fun q => bigdot x Wq q * s) (bigdot x Wk)) e

def outRsqrt (x : Fin 1024 → EReal) (Wq Wk Wv Wo : Fin 1024 → Fin 1024 → EReal) (s e : EReal) :
    Fin 1024 → EReal :=
  bigdot (ham (attRsqrt x Wq Wk s e) (bigdot x Wv)) Wo

/-! ## Whole arrays

The input is an array of 32768 rows; the four weight arrays hold the four small matrices of a layer. The two
results as whole arrays, index by index, each row a function of the same row of the input alone. -/

/-- The input's and the results' shape, and a weight array's. -/
abbrev SX : Shape := ⟨2, ![32768, 1024]⟩
abbrev SW : Shape := ⟨3, ![4, 256, 256]⟩

/-- Row `p` of an array of rows. -/
def rowOf (x : SX.Idx → EReal) (p : Fin 32768) : Fin 1024 → EReal := fun q => x (ValueIdx.ix2 p q)

/-- A weight array as its four small matrices. -/
def wOf (w : SW.Idx → EReal) : Fin 4 → Fin 256 → Fin 256 → EReal := fun a c j => w (ValueIdx.ix3 a c j)

/-- The two constants of the computation, by their binary words: the scale of the queries (the single-precision
    number nearest 0.06) and the constant added under the square root (the one nearest 0.0001). -/
def scale : EReal := Ideal.ofBits .f32 0x3D75C28F#32
def eps : EReal := Ideal.ofBits .f32 0x38D1B717#32

/-- The attention array. -/
def arrAtt (x : SX.Idx → EReal) (wq wk : SW.Idx → EReal) : SX.Idx → EReal :=
  fun i => attDiv (rowOf x (i 0)) (wOf wq) (wOf wk) scale eps (i 1)

/-- The output array. -/
def arrY (x : SX.Idx → EReal) (wq wk wv wo : SW.Idx → EReal) : SX.Idx → EReal :=
  fun i => outDiv (rowOf x (i 0)) (wOf wq) (wOf wk) (wOf wv) (wOf wo) scale eps (i 1)

end Cert.QSpec

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KPay.lean ====
/-
  The kernel body's arithmetic on one block of 512 rows, read entry by entry.

  The body forms three products of the block of rows with 1024 × 1024 matrices (keys, queries scaled by a constant,
  values), cuts each into its four quarters of 256 columns, combines the quarters of queries and keys by the
  quaternion product, normalises each quaternion by the reciprocal square root of its squared length plus a
  constant, combines the result with the quarters of the values by the quaternion product again, and multiplies by a
  fourth matrix. Entry (p, q) of every stage depends on row p of the block alone; the lemmas below say which
  row-wise function of the specification each stage is.
-/
import proofs.«104706_j62654982914287_2_alg».proof.Proof.Gen.KernelIdeal.Skeleton
import proofs.«104706_j62654982914287_2_alg».proof.Proof.QSpec
import proofs.«104706_j62654982914287_2_alg».proof.Proof.LibContractPlain
import proofs.«104706_j62654982914287_2_alg».proof.Proof.LibConcatFour
import Idealize.ShloMosaic.Lib.Pipeline.Value
import Idealize.ShloMosaic.Lib.ValueIdx
import Idealize.ShloMosaic.PureOps.Ideal.Laws

noncomputable section

namespace Cert.KernelIdeal.KPay

open Idealize.ShloMosaic Idealize.ShloMosaic.ValueIdx Cert.KernelIdeal Cert.KernelIdeal.Gen Cert.QSpec
open Cert.Lib.ConcatFour

/-- Row `p` of a block of 512 rows. -/
abbrev row (x : S512x1024.Idx → EReal) (p : Fin 512) : Fin 1024 → EReal := fun c => x (ix2 p c)

/-- A 1024 × 1024 block as a matrix. -/
abbrev mat (W : S1024x1024.Idx → EReal) : Fin 1024 → Fin 1024 → EReal := fun c q => W (ix2 c q)

/-! ## One operation at a time -/

/-- The product of the block with a matrix, into the zero accumulator, at (p, q): row p times the matrix. -/
theorem mm_apply (x : FVec Ideal S512x1024 .f32) (W : FVec Ideal S1024x1024 .f32) (p : Fin 512) (q : Fin 1024) :
    matmul dot_S512x1024_S1024x1024_S512x1024_1_0_0_1_n_n (some .fp32) x W (constant (F := Ideal) S512x1024 .f32 0x00000000#32)
      (ix2 p q) = bigdot (row x p) (mat W) q :=
  Cert.Lib.ContractPlain.matmulZero_apply dot_S512x1024_S1024x1024_S512x1024_1_0_0_1_n_n rfl (some .fp32) x W p q

section Slices
variable {α : Type} (v : S512x1024.Idx → α) (p : Fin 512) (j : Fin 256)

/-- The four quarters of a block of rows, cut out as unit-stride slices. -/
theorem slice0 : extractStridedSlice S512x256 ![0, 0] v slices_S512x1024_o0_0_S512x256 (ix2 p j) = v (ix2 p (col 0 j)) :=
  extractStridedSlice_apply _ v _ (ix2 p j) (ix2 p (col 0 j)) fun a => by
    match a with
    | ⟨0, _⟩ => show p.val = 0 + p.val; omega
    | ⟨1, _⟩ => show 256 * 0 + j.val = 0 + j.val; omega

theorem slice1 : extractStridedSlice S512x256 ![0, 256] v slices_S512x1024_o0_256_S512x256 (ix2 p j) = v (ix2 p (col 1 j)) :=
  extractStridedSlice_apply _ v _ (ix2 p j) (ix2 p (col 1 j)) fun a => by
    match a with
    | ⟨0, _⟩ => show p.val = 0 + p.val; omega
    | ⟨1, _⟩ => show 256 * 1 + j.val = 256 + j.val; omega

theorem slice2 : extractStridedSlice S512x256 ![0, 512] v slices_S512x1024_o0_512_S512x256 (ix2 p j) = v (ix2 p (col 2 j)) :=
  extractStridedSlice_apply _ v _ (ix2 p j) (ix2 p (col 2 j)) fun a => by
    match a with
    | ⟨0, _⟩ => show p.val = 0 + p.val; omega
    | ⟨1, _⟩ => show 256 * 2 + j.val = 512 + j.val; omega

theorem slice3 : extractStridedSlice S512x256 ![0, 768] v slices_S512x1024_o0_768_S512x256 (ix2 p j) = v (ix2 p (col 3 j)) :=
  extractStridedSlice_apply _ v _ (ix2 p j) (ix2 p (col 3 j)) fun a => by
    match a with
    | ⟨0, _⟩ => show p.val = 0 + p.val; omega
    | ⟨1, _⟩ => show 256 * 3 + j.val = 768 + j.val; omega

end Slices

/-- Four blocks of 256 columns laid side by side, at (p, q): the four rows p laid end to end. -/
theorem cat_apply {α : Type} (a b c d : S512x256.Idx → α) (p : Fin 512) (q : Fin 1024) :
    concatenate S512x1024 1 [⟨S512x256, a⟩, ⟨S512x256, b⟩, ⟨S512x256, c⟩, ⟨S512x256, d⟩]
        concatenates_S512x256_S512x256_S512x256_S512x256_S512x1024_d1 (ix2 p q)
      = join (fun j => a (ix2 p j)) (fun j => b (ix2 p j)) (fun j => c (ix2 p j)) (fun j => d (ix2 p j)) q :=
  concat4_apply _ a b c d _ p q

/-- Two joined rows are equal when their quarters are. -/
theorem join_congr {α : Type} {f0 f1 f2 f3 g0 g1 g2 g3 : Fin 256 → α} (h0 : f0 = g0) (h1 : f1 = g1) (h2 : f2 = g2)
    (h3 : f3 = g3) : join f0 f1 f2 f3 = join g0 g1 g2 g3 := by
  subst h0 h1 h2 h3; rfl

theorem rsqrt_apply {s : Shape} (v : FVec Ideal s .f32) (i : s.Idx) : rsqrt v i = Ideal.rsqrt (v i) := rfl

/-! ## The stages of the body, over the five loaded blocks -/

section Stages
variable (y0 : Vec Ideal S512x1024 .f32) (y1 y2 y3 y4 : Vec Ideal S1024x1024 .f32) (p : Fin 512)

/-- The keys: row p times the second matrix. -/
theorem pay3_apply (q : Fin 1024) : k0_pay3 (F := Ideal) y0 y2 (ix2 p q) = bigdot (row y0 p) (mat y2) q := by
  unfold k0_pay3
  simp only [shapeCast_self]
  exact mm_apply y0 y2 p q

/-- The queries: row p times the first matrix, scaled. -/
theorem pay4_apply (q : Fin 1024) : k0_pay4 (F := Ideal) y0 y1 (ix2 p q) = bigdot (row y0 p) (mat y1) q * scale := by
  unfold k0_pay4
  simp only [shapeCast_self, mulf_apply, broadcast_apply, mm_apply]
  rfl

/-- The values: row p times the third matrix. -/
theorem pay5_apply (q : Fin 1024) : k0_pay5 (F := Ideal) y0 y3 (ix2 p q) = bigdot (row y0 p) (mat y3) q := by
  unfold k0_pay5
  simp only [shapeCast_self]
  exact mm_apply y0 y3 p q

/-- The scaled queries and the keys of row p, as rows. -/
abbrev Qrow : Fin 1024 → EReal := fun q => bigdot (row y0 p) (mat y1) q * scale
abbrev Krow : Fin 1024 → EReal := bigdot (row y0 p) (mat y2)
abbrev Vrow : Fin 1024 → EReal := bigdot (row y0 p) (mat y3)

variable (j : Fin 256)

theorem pay6_apply : k0_pay6 (F := Ideal) y0 y1 (ix2 p j) = quarter (Qrow y0 y1 p) 0 j :=
  (slice0 (k0_pay4 (F := Ideal) y0 y1) p j).trans (pay4_apply y0 y1 p _)
theorem pay7_apply : k0_pay7 (F := Ideal) y0 y1 (ix2 p j) = quarter (Qrow y0 y1 p) 1 j :=
  (slice1 (k0_pay4 (F := Ideal) y0 y1) p j).trans (pay4_apply y0 y1 p _)
theorem pay8_apply : k0_pay8 (F := Ideal) y0 y1 (ix2 p j) = quarter (Qrow y0 y1 p) 2 j :=
  (slice2 (k0_pay4 (F := Ideal) y0 y1) p j).trans (pay4_apply y0 y1 p _)
theorem pay9_apply : k0_pay9 (F := Ideal) y0 y1 (ix2 p j) = quarter (Qrow y0 y1 p) 3 j :=
  (slice3 (k0_pay4 (F := Ideal) y0 y1) p j).trans (pay4_apply y0 y1 p _)
theorem pay10_apply : k0_pay10 (F := Ideal) y0 y2 (ix2 p j) = quarter (Krow y0 y2 p) 0 j :=
  (slice0 (k0_pay3 (F := Ideal) y0 y2) p j).trans (pay3_apply y0 y2 p _)
theorem pay11_apply : k0_pay11 (F := Ideal) y0 y2 (ix2 p j) = quarter (Krow y0 y2 p) 1 j :=
  (slice1 (k0_pay3 (F := Ideal) y0 y2) p j).trans (pay3_apply y0 y2 p _)
theorem pay12_apply : k0_pay12 (F := Ideal) y0 y2 (ix2 p j) = quarter (Krow y0 y2 p) 2 j :=
  (slice2 (k0_pay3 (F := Ideal) y0 y2) p j).trans (pay3_apply y0 y2 p _)
theorem pay13_apply : k0_pay13 (F := Ideal) y0 y2 (ix2 p j) = quarter (Krow y0 y2 p) 3 j :=
  (slice3 (k0_pay3 (F := Ideal) y0 y2) p j).trans (pay3_apply y0 y2 p _)

/-- The real, i and j components of the quaternion product of queries and keys, and the two products the k
    component starts from. -/
theorem pay14_apply : k0_pay14 (F := Ideal) y0 y1 y2 (ix2 p j)
    = quarter (Qrow y0 y1 p) 0 j * quarter (Krow y0 y2 p) 0 j - quarter (Qrow y0 y1 p) 1 j * quarter (Krow y0 y2 p) 1 j
      - quarter (Qrow y0 y1 p) 2 j * quarter (Krow y0 y2 p) 2 j - quarter (Qrow y0 y1 p) 3 j * quarter (Krow y0 y2 p) 3 j := by
  unfold k0_pay14
  simp only [mulf_apply, subf_apply, pay6_apply, pay7_apply, pay8_apply, pay9_apply, pay10_apply, pay11_apply,
    pay12_apply, pay13_apply]

theorem pay15_apply : k0_pay15 (F := Ideal) y0 y1 y2 (ix2 p j)
    = quarter (Qrow y0 y1 p) 0 j * quarter (Krow y0 y2 p) 1 j + quarter (Qrow y0 y1 p) 1 j * quarter (Krow y0 y2 p) 0 j
      + quarter (Qrow y0 y1 p) 2 j * quarter (Krow y0 y2 p) 3 j - quarter (Qrow y0 y1 p) 3 j * quarter (Krow y0 y2 p) 2 j := by
  unfold k0_pay15
  simp only [mulf_apply, subf_apply, addf_apply, pay6_apply, pay7_apply, pay8_apply, pay9_apply, pay10_apply,
    pay11_apply, pay12_apply, pay13_apply]

theorem pay16_apply : k0_pay16 (F := Ideal) y0 y1 y2 (ix2 p j)
    = quarter (Qrow y0 y1 p) 0 j * quarter (Krow y0 y2 p) 2 j - quarter (Qrow y0 y1 p) 1 j * quarter (Krow y0 y2 p) 3 j
      + quarter (Qrow y0 y1 p) 2 j * quarter (Krow y0 y2 p) 0 j + quarter (Qrow y0 y1 p) 3 j * quarter (Krow y0 y2 p) 1 j := by
  unfold k0_pay16
  simp only [mulf_apply, subf_apply, addf_apply, pay6_apply, pay7_apply, pay8_apply, pay9_apply, pay10_apply,
    pay11_apply, pay12_apply, pay13_apply]

theorem pay17_apply : k0_pay17 (F := Ideal) y0 y1 y2 (ix2 p j)
    = quarter (Qrow y0 y1 p) 0 j * quarter (Krow y0 y2 p) 3 j := by
  unfold k0_pay17
  simp only [mulf_apply, pay6_apply, pay13_apply]

theorem pay18_apply : k0_pay18 (F := Ideal) y0 y1 y2 (ix2 p j)
    = quarter (Qrow y0 y1 p) 1 j * quarter (Krow y0 y2 p) 2 j := by
  unfold k0_pay18
  simp only [mulf_apply, pay7_apply, pay12_apply]

end Stages

/-- The normalisation stage, over any nine blocks of quarters: the fourth component of the product is completed,
    the four components are laid side by side, and each quaternion is scaled by the reciprocal square root of its
    squared length plus the constant. -/
theorem pay19_apply (v16 v17 v18 v19 v28 v35 v42 v43 v44 : FVec Ideal S512x256 .f32) (p : Fin 512) (q : Fin 1024) :
    k0_pay19 (F := Ideal) v16 v17 v18 v19 v28 v35 v42 v43 v44 (ix2 p q)
      = normRsqrt (join (fun j => v28 (ix2 p j)) (fun j => v35 (ix2 p j)) (fun j => v42 (ix2 p j))
          (fun j => v43 (ix2 p j) + v44 (ix2 p j) - v16 (ix2 p j) * v19 (ix2 p j) + v17 (ix2 p j) * v18 (ix2 p j))) eps q := by
  unfold k0_pay19
  simp only [cat_apply, mulf_apply, addf_apply, subf_apply, rsqrt_apply, broadcast_apply, slice0, slice1, slice2, slice3]
  rfl

/-- The last stage, over any blocks: the fourth component of the second product is completed, the four components
    laid side by side, and the row multiplied by the fourth matrix. -/
theorem pay1_apply (v8 : FVec Ideal S1024x1024 .f32) (v73 v74 v84 v91 v98 v103 : FVec Ideal S512x256 .f32) (p : Fin 512)
    (q : Fin 1024) :
    k0_pay1 (F := Ideal) v8 v73 v74 v84 v91 v98 v103 (ix2 p q)
      = bigdot (join (fun j => v84 (ix2 p j)) (fun j => v91 (ix2 p j)) (fun j => v98 (ix2 p j))
          (fun j => v103 (ix2 p j) + v73 (ix2 p j) * v74 (ix2 p j))) (mat v8) q := by
  unfold k0_pay1
  simp only [mm_apply]
  refine congrArg (fun a => bigdot a (mat v8) q) (funext fun c => ?_)
  show concatenate S512x1024 1 [⟨S512x256, v84⟩, ⟨S512x256, v91⟩, ⟨S512x256, v98⟩, ⟨S512x256, addf v103 (mulf v73 v74)⟩]
    concatenates_S512x256_S512x256_S512x256_S512x256_S512x1024_d1 (ix2 p c) = _
  rw [cat_apply]
  simp only [addf_apply, mulf_apply]

section Whole
variable (y0 : Vec Ideal S512x1024 .f32) (y1 y2 y3 y4 : Vec Ideal S1024x1024 .f32) (p : Fin 512)

/-- The attention block, entry (p, q): the attention row of row p. -/
theorem att_apply (q : Fin 1024) :
    k0_pay19 (F := Ideal) (k0_pay8 y0 y1) (k0_pay9 y0 y1) (k0_pay10 y0 y2) (k0_pay11 y0 y2) (k0_pay14 y0 y1 y2)
        (k0_pay15 y0 y1 y2) (k0_pay16 y0 y1 y2) (k0_pay17 y0 y1 y2) (k0_pay18 y0 y1 y2) (ix2 p q)
      = attRsqrt (row y0 p) (mat y1) (mat y2) scale eps q := by
  rw [pay19_apply]
  unfold attRsqrt ham
  refine congrFun (congrArg (fun a => normRsqrt a eps) (join_congr ?_ ?_ ?_ ?_)) q <;> funext j
  · exact pay14_apply y0 y1 y2 p j
  · exact pay15_apply y0 y1 y2 p j
  · exact pay16_apply y0 y1 y2 p j
  · rw [pay17_apply, pay18_apply, pay8_apply, pay11_apply, pay9_apply, pay10_apply]

/-- The attention row of row p, for short. -/
abbrev Arow : Fin 1024 → EReal := attRsqrt (row y0 p) (mat y1) (mat y2) scale eps

variable (j : Fin 256)

theorem pay20_apply : k0_pay20 (F := Ideal) (k0_pay8 y0 y1) (k0_pay9 y0 y1) (k0_pay10 y0 y2) (k0_pay11 y0 y2)
    (k0_pay14 y0 y1 y2) (k0_pay15 y0 y1 y2) (k0_pay16 y0 y1 y2) (k0_pay17 y0 y1 y2) (k0_pay18 y0 y1 y2) (ix2 p j)
    = quarter (Arow y0 y1 y2 p) 0 j :=
  (slice0 _ p j).trans (att_apply y0 y1 y2 p _)
theorem pay21_apply : k0_pay21 (F := Ideal) (k0_pay8 y0 y1) (k0_pay9 y0 y1) (k0_pay10 y0 y2) (k0_pay11 y0 y2)
    (k0_pay14 y0 y1 y2) (k0_pay15 y0 y1 y2) (k0_pay16 y0 y1 y2) (k0_pay17 y0 y1 y2) (k0_pay18 y0 y1 y2) (ix2 p j)
    = quarter (Arow y0 y1 y2 p) 1 j :=
  (slice1 _ p j).trans (att_apply y0 y1 y2 p _)
theorem pay22_apply : k0_pay22 (F := Ideal) (k0_pay8 y0 y1) (k0_pay9 y0 y1) (k0_pay10 y0 y2) (k0_pay11 y0 y2)
    (k0_pay14 y0 y1 y2) (k0_pay15 y0 y1 y2) (k0_pay16 y0 y1 y2) (k0_pay17 y0 y1 y2) (k0_pay18 y0 y1 y2) (ix2 p j)
    = quarter (Arow y0 y1 y2 p) 2 j :=
  (slice2 _ p j).trans (att_apply y0 y1 y2 p _)
theorem pay23_apply : k0_pay23 (F := Ideal) (k0_pay8 y0 y1) (k0_pay9 y0 y1) (k0_pay10 y0 y2) (k0_pay11 y0 y2)
    (k0_pay14 y0 y1 y2) (k0_pay15 y0 y1 y2) (k0_pay16 y0 y1 y2) (k0_pay17 y0 y1 y2) (k0_pay18 y0 y1 y2) (ix2 p j)
    = quarter (Arow y0 y1 y2 p) 3 j :=
  (slice3 _ p j).trans (att_apply y0 y1 y2 p _)

theorem pay24_apply : k0_pay24 (F := Ideal) (k0_pay5 y0 y3) (ix2 p j) = quarter (Vrow y0 y3 p) 0 j :=
  (slice0 _ p j).trans (pay5_apply y0 y3 p _)
theorem pay25_apply : k0_pay25 (F := Ideal) (k0_pay5 y0 y3) (ix2 p j) = quarter (Vrow y0 y3 p) 1 j :=
  (slice1 _ p j).trans (pay5_apply y0 y3 p _)
theorem pay26_apply : k0_pay26 (F := Ideal) (k0_pay5 y0 y3) (ix2 p j) = quarter (Vrow y0 y3 p) 2 j :=
  (slice2 _ p j).trans (pay5_apply y0 y3 p _)
theorem pay27_apply : k0_pay27 (F := Ideal) (k0_pay5 y0 y3) (ix2 p j) = quarter (Vrow y0 y3 p) 3 j :=
  (slice3 _ p j).trans (pay5_apply y0 y3 p _)

omit j in
/-- The output block, entry (p, q): the output row of row p. -/
theorem y_apply (q : Fin 1024) :
    k0_pay1 (F := Ideal) (k0_pay2 y4)
        (k0_pay23 (k0_pay8 y0 y1) (k0_pay9 y0 y1) (k0_pay10 y0 y2) (k0_pay11 y0 y2) (k0_pay14 y0 y1 y2)
          (k0_pay15 y0 y1 y2) (k0_pay16 y0 y1 y2) (k0_pay17 y0 y1 y2) (k0_pay18 y0 y1 y2))
        (k0_pay24 (k0_pay5 y0 y3))
        (k0_pay28 (k0_pay5 y0 y3) (k0_pay8 y0 y1) (k0_pay9 y0 y1) (k0_pay10 y0 y2) (k0_pay11 y0 y2) (k0_pay14 y0 y1 y2)
          (k0_pay15 y0 y1 y2) (k0_pay16 y0 y1 y2) (k0_pay17 y0 y1 y2) (k0_pay18 y0 y1 y2))
        (k0_pay29 (k0_pay5 y0 y3) (k0_pay8 y0 y1) (k0_pay9 y0 y1) (k0_pay10 y0 y2) (k0_pay11 y0 y2) (k0_pay14 y0 y1 y2)
          (k0_pay15 y0 y1 y2) (k0_pay16 y0 y1 y2) (k0_pay17 y0 y1 y2) (k0_pay18 y0 y1 y2))
        (k0_pay30 (k0_pay5 y0 y3) (k0_pay8 y0 y1) (k0_pay9 y0 y1) (k0_pay10 y0 y2) (k0_pay11 y0 y2) (k0_pay14 y0 y1 y2)
          (k0_pay15 y0 y1 y2) (k0_pay16 y0 y1 y2) (k0_pay17 y0 y1 y2) (k0_pay18 y0 y1 y2))
        (k0_pay31 (k0_pay5 y0 y3) (k0_pay8 y0 y1) (k0_pay9 y0 y1) (k0_pay10 y0 y2) (k0_pay11 y0 y2) (k0_pay14 y0 y1 y2)
          (k0_pay15 y0 y1 y2) (k0_pay16 y0 y1 y2) (k0_pay17 y0 y1 y2) (k0_pay18 y0 y1 y2))
        (ix2 p q)
      = outRsqrt (row y0 p) (mat y1) (mat y2) (mat y3) (mat y4) scale eps q := by
  rw [pay1_apply]
  unfold outRsqrt ham
  have h2 : k0_pay2 (F := Ideal) y4 = y4 := by unfold k0_pay2; exact shapeCast_self _ _
  rw [h2]
  refine congrFun (congrArg (fun a => bigdot a (mat y4)) (join_congr ?_ ?_ ?_ ?_)) q <;> funext j
  · unfold k0_pay28
    simp only [mulf_apply, subf_apply, addf_apply, pay20_apply, pay21_apply, pay22_apply, pay23_apply, pay24_apply,
      pay25_apply, pay26_apply, pay27_apply]
  · unfold k0_pay29
    simp only [mulf_apply, subf_apply, addf_apply, pay20_apply, pay21_apply, pay22_apply, pay23_apply, pay24_apply,
      pay25_apply, pay26_apply, pay27_apply]
  · unfold k0_pay30
    simp only [mulf_apply, subf_apply, addf_apply, pay20_apply, pay21_apply, pay22_apply, pay23_apply, pay24_apply,
      pay25_apply, pay26_apply, pay27_apply]
  · unfold k0_pay31
    simp only [mulf_apply, subf_apply, addf_apply, pay20_apply, pay21_apply, pay22_apply, pay23_apply, pay24_apply,
      pay25_apply, pay26_apply, pay27_apply]

end Whole

end Cert.KernelIdeal.KPay

end
-- ==== Proof.KBlock.lean ====
/-
  The two output blocks of one grid point as functions of the five input blocks.

  What the body stores into the two output windows is, entry (p, q), the output row and the attention row of row p
  of the block of input rows, with the four 1024 × 1024 blocks as the matrices of the four layers.
-/
import proofs.«104706_j62654982914287_2_alg».proof.Proof.FrameIdeal
import proofs.«104706_j62654982914287_2_alg».proof.Proof.KPay

noncomputable section

namespace Cert.KernelIdeal.KBlock

open Idealize.ShloMosaic Idealize.ShloMosaic.ValueIdx Cert.KernelIdeal Cert.KernelIdeal.Gen Cert.QSpec
open Cert.KernelIdeal.KPay

/-- The attention block: row by row, the attention row of the same row of the input block. -/
def blockAtt (x0 : S512x1024.Idx → EReal) (x1 x2 : S1024x1024.Idx → EReal) : S512x1024.Idx → EReal :=
  fun i => attRsqrt (row x0 (i 0)) (mat x1) (mat x2) scale eps (i 1)

/-- The output block: row by row, the output row of the same row of the input block. -/
def blockY (x0 : S512x1024.Idx → EReal) (x1 x2 x3 x4 : S1024x1024.Idx → EReal) : S512x1024.Idx → EReal :=
  fun i => outRsqrt (row x0 (i 0)) (mat x1) (mat x2) (mat x3) (mat x4) scale eps (i 1)

theorem hz : (![0, 0] : Fin 2 → Nat) = fun _ => 0 := funext fun a => by fin_cases a <;> rfl

variable (x0 : Vec Ideal S512x1024 .f32) (x1 x2 x3 x4 : Vec Ideal S1024x1024 .f32)

/-- The second output window's buffer after the body is the attention block. -/
theorem out0_6_eq : Hand.out0_6 (F := Ideal) x0 x1 x2 x3 x4 = blockAtt x0 x1 x2 := by
  unfold Hand.out0_6
  rw [View.canon_unit_zero hz]
  unfold Hand.b69 Hand.a16 Hand.a17 Hand.a18 Hand.a19 Hand.a28 Hand.a35 Hand.a42 Hand.a43 Hand.a44
  simp only [View.ld_unit_zero (S := S512x1024) hz, View.ld_unit_zero (S := S1024x1024) hz]
  funext i
  obtain ⟨p, q, rfl⟩ : ∃ (p : Fin 512) (q : Fin 1024), i = ix2 p q := ⟨i 0, i 1, eq_ix2 i⟩
  exact att_apply x0 x1 x2 p q

/-- The first output window's buffer after the body is the output block. -/
theorem out0_5_eq : Hand.out0_5 (F := Ideal) x0 x1 x2 x3 x4 = blockY x0 x1 x2 x3 x4 := by
  unfold Hand.out0_5
  rw [View.canon_unit_zero hz]
  unfold Hand.a8 Hand.b73 Hand.b74 Hand.b84 Hand.b91 Hand.b98 Hand.b103 Hand.a13 Hand.a16 Hand.a17 Hand.a18 Hand.a19
    Hand.a28 Hand.a35 Hand.a42 Hand.a43 Hand.a44
  simp only [View.ld_unit_zero (S := S512x1024) hz, View.ld_unit_zero (S := S1024x1024) hz]
  funext i
  obtain ⟨p, q, rfl⟩ : ∃ (p : Fin 512) (q : Fin 1024), i = ix2 p q := ⟨i 0, i 1, eq_ix2 i⟩
  exact y_apply x0 x1 x2 x3 x4 p q

end Cert.KernelIdeal.KBlock

end
-- ==== Proof.LibConcatFourRows.lean ====
/-
  Four matrices with the same number of columns stacked one above the other — a concatenation along the row
  axis — read at one entry. Column `q` of the stack is the four columns `q` laid end to end: row `r` belongs to
  the piece whose span of rows holds `r`, at `r` less the heights of the pieces above it. The common column count
  and the four heights are parameters.
-/
import proofs.«104706_j62654982914287_2_alg».proof.Proof.LibConcatFour

namespace Cert.Lib.ConcatFourRows

open Idealize.ShloMosaic Idealize.ShloMosaic.ValueIdx
open Cert.Lib.ConcatFour (join4)

variable {α : Type}

/-- Four matrices `[n0, C]`, `[n1, C]`, `[n2, C]`, `[n3, C]` concatenated along axis 0 into `[N, C]`, read at
    `(r, q)`: column `q` of the result is the four columns `q` laid end to end, so the entry is that of the piece
    whose rows hold `r`, at row `r` less the heights of the pieces above. -/
theorem concat4rows_apply {C n0 n1 n2 n3 N : ℕ} (hN : N = n0 + n1 + n2 + n3)
    (x0 : (⟨2, ![n0, C]⟩ : Shape).Idx → α) (x1 : (⟨2, ![n1, C]⟩ : Shape).Idx → α)
    (x2 : (⟨2, ![n2, C]⟩ : Shape).Idx → α) (x3 : (⟨2, ![n3, C]⟩ : Shape).Idx → α)
    (h : Shape.Concatenates (([⟨⟨2, ![n0, C]⟩, x0⟩, ⟨⟨2, ![n1, C]⟩, x1⟩, ⟨⟨2, ![n2, C]⟩, x2⟩, ⟨⟨2, ![n3, C]⟩, x3⟩] :
      List ((s : Shape) × (s.Idx → α))).map (·.1)) ⟨2, ![N, C]⟩ 0)
    (r : Fin N) (q : Fin C) :
    concatenate ⟨2, ![N, C]⟩ 0 [⟨⟨2, ![n0, C]⟩, x0⟩, ⟨⟨2, ![n1, C]⟩, x1⟩, ⟨⟨2, ![n2, C]⟩, x2⟩, ⟨⟨2, ![n3, C]⟩, x3⟩] h (ix2 r q)
      = join4 hN (fun i => x0 (ix2 i q)) (fun i => x1 (ix2 i q)) (fun i => x2 (ix2 i q)) (fun i => x3 (ix2 i q)) r := by
  -- off the row axis a piece's index and the stack's agree: both are the column `q`
  have hoff : ∀ {n : ℕ} (e : Fin n) (b : Fin 2) (hb : b.cast (rfl : (2 : ℕ) = 2) ≠ (0 : Fin 2)),
      ((ix2 e q : (⟨2, ![n, C]⟩ : Shape).Idx) b).val = ((ix2 r q : (⟨2, ![N, C]⟩ : Shape).Idx) (b.cast rfl)).val := by
    intro n e b hb
    match b, hb with
    | ⟨0, _⟩, hb => exact absurd (Fin.ext rfl) hb
    | ⟨1, _⟩, _ => rfl
  unfold join4
  by_cases h0 : r.val < n0
  · rw [dif_pos h0]
    exact concatenate_apply_piece 0 _ h (ix2 r q) 0 (by show (0 : ℕ) < 4; omega) _ x0 rfl rfl 0 rfl (ix2 ⟨r.val, h0⟩ q)
      (fun b hb => hoff _ b hb) (by show 0 + r.val = r.val; omega)
  · rw [dif_neg h0]
    by_cases h1 : r.val < n0 + n1
    · rw [dif_pos h1]
      exact concatenate_apply_piece 0 _ h (ix2 r q) 1 (by show (1 : ℕ) < 4; omega) _ x1 rfl rfl n0 rfl (ix2 ⟨r.val - n0, by omega⟩ q)
        (fun b hb => hoff _ b hb) (by show n0 + (r.val - n0) = r.val; omega)
    · rw [dif_neg h1]
      by_cases h2 : r.val < n0 + n1 + n2
      · rw [dif_pos h2]
        exact concatenate_apply_piece 0 _ h (ix2 r q) 2 (by show (2 : ℕ) < 4; omega) _ x2 rfl rfl (n0 + n1) rfl
          (ix2 ⟨r.val - (n0 + n1), by omega⟩ q) (fun b hb => hoff _ b hb)
          (by show n0 + n1 + (r.val - (n0 + n1)) = r.val; omega)
      · rw [dif_neg h2]
        exact concatenate_apply_piece 0 _ h (ix2 r q) 3 (by show (3 : ℕ) < 4; omega) _ x3 rfl rfl (n0 + n1 + n2)
          (by show n0 + (n1 + (n2 + 0)) = n0 + n1 + n2; omega)
          (ix2 ⟨r.val - (n0 + n1 + n2), by have := r.isLt; omega⟩ q) (fun b hb => hoff _ b hb)
          (by show n0 + n1 + n2 + (r.val - (n0 + n1 + n2)) = r.val; omega)

end Cert.Lib.ConcatFourRows
-- ==== Proof.KHost.lean ====
/-
  The host operations that precede the region, read in closed form.

  Each of the four weight arguments is a stack of four 256 × 256 matrices. The host operations cut the stack into
  its four matrices, lay signed copies of them side by side into four 256 × 1024 row blocks, and stack the four
  row blocks into one 1024 × 1024 matrix; the same pattern is repeated for each of the four arguments. This file
  names that matrix as a function of the stack, shows that the four arrays the region reads hold it, and reads it
  entry by entry: it is the 4 × 4 grid of signed small matrices that turns a quaternion dense layer into one
  matrix product.
-/
import proofs.«104706_j62654982914287_2_alg».proof.Proof.FrameIdeal
import proofs.«104706_j62654982914287_2_alg».proof.Proof.QSpec
import proofs.«104706_j62654982914287_2_alg».proof.Proof.LibConcatFour
import proofs.«104706_j62654982914287_2_alg».proof.Proof.LibConcatFourRows
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Cert.Lib.ConcatFour Cert.Lib.ConcatFourRows

variable {F : FTy → Type} [FloatOps F]

/-! ## The matrix a stack of four small matrices is turned into -/

/-- Matrix `0` of the stack: the slice at `0` along the first axis, its unit axis dropped. -/
def wm0 (w : FVec F S4x256x256 .f32) : FVec F S256x256 .f32 :=
  shapeCast S256x256 (extractStridedSlice S1x256x256 ![0, 0, 0] w slices_S4x256x256_S1x256x256_0_0_0) shapeCasts_S1x256x256_S256x256
/-- Matrix `1` of the stack: the slice at `1` along the first axis, its unit axis dropped. -/
def wm1 (w : FVec F S4x256x256 .f32) : FVec F S256x256 .f32 :=
  shapeCast S256x256 (extractStridedSlice S1x256x256 ![1, 0, 0] w slices_S4x256x256_S1x256x256_1_0_0) shapeCasts_S1x256x256_S256x256
/-- Matrix `2` of the stack: the slice at `2` along the first axis, its unit axis dropped. -/
def wm2 (w : FVec F S4x256x256 .f32) : FVec F S256x256 .f32 :=
  shapeCast S256x256 (extractStridedSlice S1x256x256 ![2, 0, 0] w slices_S4x256x256_S1x256x256_2_0_0) shapeCasts_S1x256x256_S256x256
/-- Matrix `3` of the stack: the slice at `3` along the first axis, its unit axis dropped. -/
def wm3 (w : FVec F S4x256x256 .f32) : FVec F S256x256 .f32 :=
  shapeCast S256x256 (extractStridedSlice S1x256x256 ![3, 0, 0] w slices_S4x256x256_S1x256x256_3_0_0) shapeCasts_S1x256x256_S256x256

/-- A row block of the big matrix: the four small matrices side by side. -/
def rowR (w : FVec F S4x256x256 .f32) : FVec F S256x1024 .f32 :=
  concatenate S256x1024 1 [⟨S256x256, wm0 w⟩, ⟨S256x256, wm1 w⟩, ⟨S256x256, wm2 w⟩, ⟨S256x256, wm3 w⟩]
    concatenates_S256x256_S256x256_S256x256_S256x256_S256x1024_d1
/-- A row block of the big matrix: minus the second, the first, the fourth, minus the third. -/
def rowI (w : FVec F S4x256x256 .f32) : FVec F S256x1024 .f32 :=
  concatenate S256x1024 1 [⟨S256x256, Host.negf (wm1 w)⟩, ⟨S256x256, wm0 w⟩, ⟨S256x256, wm3 w⟩, ⟨S256x256, Host.negf (wm2 w)⟩]
    concatenates_S256x256_S256x256_S256x256_S256x256_S256x1024_d1
/-- A row block of the big matrix: minus the third, minus the fourth, the first, the second. -/
def rowJ (w : FVec F S4x256x256 .f32) : FVec F S256x1024 .f32 :=
  concatenate S256x1024 1 [⟨S256x256, Host.negf (wm2 w)⟩, ⟨S256x256, Host.negf (wm3 w)⟩, ⟨S256x256, wm0 w⟩, ⟨S256x256, wm1 w⟩]
    concatenates_S256x256_S256x256_S256x256_S256x256_S256x1024_d1
/-- A row block of the big matrix: minus the fourth, the third, minus the second, the first. -/
def rowK (w : FVec F S4x256x256 .f32) : FVec F S256x1024 .f32 :=
  concatenate S256x1024 1 [⟨S256x256, Host.negf (wm3 w)⟩, ⟨S256x256, wm2 w⟩, ⟨S256x256, Host.negf (wm1 w)⟩, ⟨S256x256, wm0 w⟩]
    concatenates_S256x256_S256x256_S256x256_S256x256_S256x1024_d1

/-- The big matrix: the four row blocks one above the other. -/
def bigArr (w : FVec F S4x256x256 .f32) : FVec F S1024x1024 .f32 :=
  concatenate S1024x1024 0 [⟨S256x1024, rowR w⟩, ⟨S256x1024, rowI w⟩, ⟨S256x1024, rowJ w⟩, ⟨S256x1024, rowK w⟩]
    concatenates_S256x1024_S256x1024_S256x1024_S256x1024_S1024x1024_d0

/-! ## The arrays the region reads hold it -/

variable (m : (ℓ : Loc nD τ sig) → Buf (Elt F) ℓ)

set_option maxRecDepth 8192 in
set_option maxHeartbeats 4000000 in
/-- When the region is entered, `main_v18` holds the big matrix of the stack `main_arg1` as launched. -/
theorem V_main_v18 (c : Dev nD) : Cert.KernelIdeal.Hand.V m c main_v18 = bigArr (m ((c : Thread nD τ).loc main_arg1)) := by
  show StableHlo.after hostOps0 (fun b => m (c, b)) (Proc.devRef .tc main_v18) = _
  simp only [hostOps0]
  after_results_simp
  try dsimp only [Matrix.cons_val]
  try after_results_simp
  rfl

set_option maxRecDepth 8192 in
set_option maxHeartbeats 4000000 in
/-- When the region is entered, `main_v37` holds the big matrix of the stack `main_arg2` as launched. -/
theorem V_main_v37 (c : Dev nD) : Cert.KernelIdeal.Hand.V m c main_v37 = bigArr (m ((c : Thread nD τ).loc main_arg2)) := by
  show StableHlo.after hostOps0 (fun b => m (c, b)) (Proc.devRef .tc main_v37) = _
  simp only [hostOps0]
  after_results_simp
  try dsimp only [Matrix.cons_val]
  try after_results_simp
  rfl

set_option maxRecDepth 8192 in
set_option maxHeartbeats 4000000 in
/-- When the region is entered, `main_v56` holds the big matrix of the stack `main_arg3` as launched. -/
theorem V_main_v56 (c : Dev nD) : Cert.KernelIdeal.Hand.V m c main_v56 = bigArr (m ((c : Thread nD τ).loc main_arg3)) := by
  show StableHlo.after hostOps0 (fun b => m (c, b)) (Proc.devRef .tc main_v56) = _
  simp only [hostOps0]
  after_results_simp
  try dsimp only [Matrix.cons_val]
  try after_results_simp
  rfl

set_option maxRecDepth 8192 in
set_option maxHeartbeats 4000000 in
/-- When the region is entered, `main_v75` holds the big matrix of the stack `main_arg4` as launched. -/
theorem V_main_v75 (c : Dev nD) : Cert.KernelIdeal.Hand.V m c main_v75 = bigArr (m ((c : Thread nD τ).loc main_arg4)) := by
  show StableHlo.after hostOps0 (fun b => m (c, b)) (Proc.devRef .tc main_v75) = _
  simp only [hostOps0]
  after_results_simp
  try dsimp only [Matrix.cons_val]
  try after_results_simp
  rfl

/-! ## The big matrix entry by entry -/

section Reads

variable {α : Type}

/-- An entry of matrix `k` of the stack is the stack's entry at `k` along the first axis: the slice shifts the first
    coordinate by `k`, and dropping the unit axis keeps the other two. -/
theorem slab_apply (w : S4x256x256.Idx → α) (k : Fin 4) (hs : S4x256x256.Slices ![k.val, 0, 0] S1x256x256)
    (c' j : Fin 256) :
    shapeCast S256x256 (extractStridedSlice S1x256x256 ![k.val, 0, 0] w hs) shapeCasts_S1x256x256_S256x256 (ix2 c' j)
      = w (ix3 k c' j) := by
  refine (shapeCast_dropUnit_apply ![256, 256] _ shapeCasts_S1x256x256_S256x256 (ix2 c' j)).trans ?_
  refine extractStridedSlice_apply _ w hs _ (ix3 k c' j) fun a => ?_
  match a with
  | ⟨0, _⟩ => show k.val = k.val + 0; omega
  | ⟨1, _⟩ => show c'.val = 0 + c'.val; omega
  | ⟨2, _⟩ => show j.val = 0 + j.val; omega

end Reads

theorem wm0_apply (w : FVec F S4x256x256 .f32) (c' j : Fin 256) : wm0 w (ix2 c' j) = w (ix3 0 c' j) :=
  slab_apply w 0 slices_S4x256x256_S1x256x256_0_0_0 c' j
theorem wm1_apply (w : FVec F S4x256x256 .f32) (c' j : Fin 256) : wm1 w (ix2 c' j) = w (ix3 1 c' j) :=
  slab_apply w 1 slices_S4x256x256_S1x256x256_1_0_0 c' j
theorem wm2_apply (w : FVec F S4x256x256 .f32) (c' j : Fin 256) : wm2 w (ix2 c' j) = w (ix3 2 c' j) :=
  slab_apply w 2 slices_S4x256x256_S1x256x256_2_0_0 c' j
theorem wm3_apply (w : FVec F S4x256x256 .f32) (c' j : Fin 256) : wm3 w (ix2 c' j) = w (ix3 3 c' j) :=
  slab_apply w 3 slices_S4x256x256_S1x256x256_3_0_0 c' j

/-- Over the extended reals the host's negation of a matrix negates each entry. -/
theorem hostNegf_apply {s : Shape} {φ : FTy} (a : FVec Ideal s φ) (i : s.Idx) : Host.negf a i = -(a i) := rfl

/-- Row `c'` of the first row block is rows `c'` of the four small matrices laid end to end. -/
theorem rowR_apply (w : FVec F S4x256x256 .f32) (c' : Fin 256) (q : Fin 1024) :
    rowR w (ix2 c' q) = join4 (show 1024 = 256 + 256 + 256 + 256 from rfl) (fun j => w (ix3 0 c' j)) (fun j => w (ix3 1 c' j)) (fun j => w (ix3 2 c' j)) (fun j => w (ix3 3 c' j)) q := by
  unfold rowR
  refine (concat4_apply (show 1024 = 256 + 256 + 256 + 256 from rfl) _ _ _ _ _ c' q).trans ?_
  simp only [wm0_apply, wm1_apply, wm2_apply, wm3_apply]

/-- Row `c'` of this row block, over the extended reals, where the host's negation is negation: minus the second, the first, the fourth, minus the third. -/
theorem rowI_apply (w : FVec Ideal S4x256x256 .f32) (c' : Fin 256) (q : Fin 1024) :
    rowI w (ix2 c' q) = join4 (show 1024 = 256 + 256 + 256 + 256 from rfl) (fun j => -(w (ix3 1 c' j))) (fun j => w (ix3 0 c' j)) (fun j => w (ix3 3 c' j)) (fun j => -(w (ix3 2 c' j))) q := by
  unfold rowI
  refine (concat4_apply (show 1024 = 256 + 256 + 256 + 256 from rfl) _ _ _ _ _ c' q).trans ?_
  simp only [hostNegf_apply, wm0_apply, wm1_apply, wm2_apply, wm3_apply]

/-- Row `c'` of this row block, over the extended reals, where the host's negation is negation: minus the third, minus the fourth, the first, the second. -/
theorem rowJ_apply (w : FVec Ideal S4x256x256 .f32) (c' : Fin 256) (q : Fin 1024) :
    rowJ w (ix2 c' q) = join4 (show 1024 = 256 + 256 + 256 + 256 from rfl) (fun j => -(w (ix3 2 c' j))) (fun j => -(w (ix3 3 c' j))) (fun j => w (ix3 0 c' j)) (fun j => w (ix3 1 c' j)) q := by
  unfold rowJ
  refine (concat4_apply (show 1024 = 256 + 256 + 256 + 256 from rfl) _ _ _ _ _ c' q).trans ?_
  simp only [hostNegf_apply, wm0_apply, wm1_apply, wm2_apply, wm3_apply]

/-- Row `c'` of this row block, over the extended reals, where the host's negation is negation: minus the fourth, the third, minus the second, the first. -/
theorem rowK_apply (w : FVec Ideal S4x256x256 .f32) (c' : Fin 256) (q : Fin 1024) :
    rowK w (ix2 c' q) = join4 (show 1024 = 256 + 256 + 256 + 256 from rfl) (fun j => -(w (ix3 3 c' j))) (fun j => w (ix3 2 c' j)) (fun j => -(w (ix3 1 c' j))) (fun j => w (ix3 0 c' j)) q := by
  unfold rowK
  refine (concat4_apply (show 1024 = 256 + 256 + 256 + 256 from rfl) _ _ _ _ _ c' q).trans ?_
  simp only [hostNegf_apply, wm0_apply, wm1_apply, wm2_apply, wm3_apply]

/-- The big matrix of a stack is the 4 × 4 grid of signed small matrices of the quaternion dense layer. -/
theorem bigArr_apply (w : FVec Ideal S4x256x256 .f32) (c q : Fin 1024) :
    bigArr w (ix2 c q) = Cert.QSpec.bigW (Cert.QSpec.wOf w) c q := by
  unfold bigArr
  refine (concat4rows_apply (show 1024 = 256 + 256 + 256 + 256 from rfl) _ _ _ _ _ c q).trans ?_
  simp only [rowR_apply, rowI_apply, rowJ_apply, rowK_apply]
  rfl

end Cert.KernelIdeal.KHost

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.QLaws.lean ====
/-
  Laws of the row-wise quaternion layer on the extended reals, for rows and weights whose entries are real numbers.

  * A row of width 1024 is indexed by (quarter, position): `exists_col`, `sum_col`, `join_col0 … join_col3`.
  * Entries that are real numbers stay real under sums, products, differences, the layer, the quaternion product
    and the normalisation (`IsReal` and its closure lemmas).
  * One product with the signed block matrix is the sixteen small products with the signs of the quaternion
    product (`bigdot_bigW`): a sum over 1024 coordinates is four sums over 256, a product with a negated entry is
    the negated product, and a sum of negated REAL terms is the negated sum — the one step that needs the entries
    to be real, since on the extended reals −(⊤ + ⊥) is not (−⊤) + (−⊥).
  * For a positive real s, x · (1/√s) = x / √s (`normRsqrt_eq_normDiv`).
-/
import proofs.«104706_j62654982914287_2_alg».proof.Proof.QSpec
import proofs.«104706_j62654982914287_2_alg».proof.Proof.LibFinite

noncomputable section

namespace Cert.QSpec

open Idealize.ShloMosaic Cert.Lib.ConcatFour

/-! ## Columns and quarters -/

/-- Every column is position `j` of some quarter `b`. -/
theorem exists_col (q : Fin 1024) : ∃ (b : Fin 4) (j : Fin 256), q = col b j :=
  ⟨⟨q.val / 256, by have := q.isLt; omega⟩, ⟨q.val % 256, Nat.mod_lt _ (by norm_num)⟩,
    Fin.ext (by show q.val = 256 * (q.val / 256) + q.val % 256; omega)⟩

section Join
variable {α : Type} (f0 f1 f2 f3 : Fin 256 → α) (j : Fin 256)

theorem join_col0 : join f0 f1 f2 f3 (col 0 j) = f0 j := by
  have hj := j.isLt
  have h : (col 0 j).val = j.val := by show 256 * 0 + j.val = _; omega
  show join4 _ f0 f1 f2 f3 (col 0 j) = f0 j
  unfold join4
  split_ifs <;> first | omega | exact congrArg f0 (Fin.ext h)

theorem join_col1 : join f0 f1 f2 f3 (col 1 j) = f1 j := by
  have hj := j.isLt
  have h : (col 1 j).val = 256 + j.val := by show 256 * 1 + j.val = _; omega
  show join4 _ f0 f1 f2 f3 (col 1 j) = f1 j
  unfold join4
  split_ifs <;> first | omega | exact congrArg f1 (Fin.ext (by show (col 1 j).val - 256 = j.val; omega))

theorem join_col2 : join f0 f1 f2 f3 (col 2 j) = f2 j := by
  have hj := j.isLt
  have h : (col 2 j).val = 512 + j.val := by show 256 * 2 + j.val = _; omega
  show join4 _ f0 f1 f2 f3 (col 2 j) = f2 j
  unfold join4
  split_ifs <;> first | omega | exact congrArg f2 (Fin.ext (by show (col 2 j).val - (256 + 256) = j.val; omega))

theorem join_col3 : join f0 f1 f2 f3 (col 3 j) = f3 j := by
  have hj := j.isLt
  have h : (col 3 j).val = 768 + j.val := by show 256 * 3 + j.val = _; omega
  show join4 _ f0 f1 f2 f3 (col 3 j) = f3 j
  unfold join4
  split_ifs <;> first | omega | exact congrArg f3 (Fin.ext (by show (col 3 j).val - (256 + 256 + 256) = j.val; omega))

/-- A property of every entry of the four quarters holds of every entry of the joined row. -/
theorem join_all (P : α → Prop) (h0 : ∀ j, P (f0 j)) (h1 : ∀ j, P (f1 j)) (h2 : ∀ j, P (f2 j)) (h3 : ∀ j, P (f3 j))
    (q : Fin 1024) : P (join f0 f1 f2 f3 q) := by
  obtain ⟨b, j, rfl⟩ := exists_col q
  match b with
  | ⟨0, _⟩ => exact (join_col0 f0 f1 f2 f3 j).symm ▸ h0 j
  | ⟨1, _⟩ => exact (join_col1 f0 f1 f2 f3 j).symm ▸ h1 j
  | ⟨2, _⟩ => exact (join_col2 f0 f1 f2 f3 j).symm ▸ h2 j
  | ⟨3, _⟩ => exact (join_col3 f0 f1 f2 f3 j).symm ▸ h3 j
  | ⟨n + 4, h⟩ => exact absurd h (by omega)

end Join

/-- A sum over the 1024 columns is the sum over the four quarters of the sums over their 256 positions. -/
theorem sum_col {M : Type} [AddCommMonoid M] (f : Fin 1024 → M) :
    ∑ c : Fin 1024, f c = ∑ a : Fin 4, ∑ c' : Fin 256, f (col a c') := by
  rw [← Fintype.sum_prod_type' (f := fun a c' => f (col a c'))]
  refine (Fintype.sum_equiv (finProdFinEquiv (m := 4) (n := 256)) (fun p => f (col p.1 p.2)) f (fun p => ?_)).symm
  refine congrArg f (Fin.ext ?_)
  show 256 * p.1.val + p.2.val = p.2.val + 256 * p.1.val
  omega

/-! ## Real entries -/

/-- An extended real that is a real number. -/
def IsReal (z : EReal) : Prop := ∃ r : ℝ, z = (r : EReal)

theorem IsReal.coe (r : ℝ) : IsReal (r : EReal) := ⟨r, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.sum {ι : Type} [Fintype ι] {f : ι → EReal} (h : ∀ i, IsReal (f i)) : IsReal (∑ i, f i) := by
  choose r hr using h
  exact ⟨∑ i, r i, by rw [Cert.LibFinite.coe_sum]; exact Finset.sum_congr rfl fun i _ => hr i⟩

/-- The finiteness facts a precondition gives are this. -/
theorem IsReal.of_ne {z : EReal} (h : z ≠ ⊤ ∧ z ≠ ⊥) : IsReal z :=
  ⟨z.toReal, (EReal.coe_toReal h.1 h.2).symm⟩

theorem quarter_real {v : Fin 1024 → EReal} (hv : ∀ c, IsReal (v c)) (a : Fin 4) (j : Fin 256) : IsReal (quarter v a j) :=
  hv _

theorem dot_real {v : Fin 1024 → EReal} {w : Fin 4 → Fin 256 → Fin 256 → EReal} (hv : ∀ c, IsReal (v c))
    (hw : ∀ a c j, IsReal (w a c j)) (a b : Fin 4) (j : Fin 256) : IsReal (dot v w a b j) :=
  IsReal.sum fun c => (quarter_real hv a c).mul (hw b c j)

theorem qlin_real {v : Fin 1024 → EReal} {w : Fin 4 → Fin 256 → Fin 256 → EReal} (hv : ∀ c, IsReal (v c))
    (hw : ∀ a c j, IsReal (w a c j)) (q : Fin 1024) : IsReal (qlin v w q) :=
  join_all _ _ _ _ IsReal
    (fun j => (((dot_real hv hw 0 0 j).sub (dot_real hv hw 1 1 j)).sub (dot_real hv hw 2 2 j)).sub (dot_real hv hw 3 3 j))
    (fun j => (((dot_real hv hw 0 1 j).add (dot_real hv hw 1 0 j)).sub (dot_real hv hw 2 3 j)).add (dot_real hv hw 3 2 j))
    (fun j => (((dot_real hv hw 0 2 j).add (dot_real hv hw 1 3 j)).add (dot_real hv hw 2 0 j)).sub (dot_real hv hw 3 1 j))
    (fun j => (((dot_real hv hw 0 3 j).sub (dot_real hv hw 1 2 j)).add (dot_real hv hw 2 1 j)).add (dot_real hv hw 3 0 j))
    q

theorem ham_real {a b : Fin 1024 → EReal} (ha : ∀ c, IsReal (a c)) (hb : ∀ c, IsReal (b c)) (q : Fin 1024) :
    IsReal (ham a b q) :=
  join_all _ _ _ _ IsReal
    (fun j => (((((ha _).mul (hb _)).sub ((ha _).mul (hb _))).sub ((ha _).mul (hb _)))).sub ((ha _).mul (hb _)))
    (fun j => (((((ha _).mul (hb _)).add ((ha _).mul (hb _))).add ((ha _).mul (hb _)))).sub ((ha _).mul (hb _)))
    (fun j => (((((ha _).mul (hb _)).sub ((ha _).mul (hb _))).add ((ha _).mul (hb _)))).add ((ha _).mul (hb _)))
    (fun j => (((((ha _).mul (hb _)).add ((ha _).mul (hb _))).sub ((ha _).mul (hb _)))).add ((ha _).mul (hb _)))
    q

/-! ## One big product is sixteen small ones -/

/-- A sum of products with negated real entries is the negated sum of the products. -/
theorem sum_mul_neg {f g : Fin 256 → EReal} (hf : ∀ c, IsReal (f c)) (hg : ∀ c, IsReal (g c)) :
    ∑ c, f c * -(g c) = -(∑ c, f c * g c) := by
  choose r hr using hf
  choose s hs using hg
  simp only [hr, hs, ← EReal.coe_neg, ← EReal.coe_mul, ← Cert.LibFinite.coe_sum]
  exact congrArg _ (by simp only [mul_neg, Finset.sum_neg_distrib])

section Big
variable {v : Fin 1024 → EReal} {w : Fin 4 → Fin 256 → Fin 256 → EReal}
  (hv : ∀ c, IsReal (v c)) (hw : ∀ a c j, IsReal (w a c j)) (j : Fin 256)
include hv hw

theorem bigdot_bigW_col0 : bigdot v (bigW w) (col 0 j) = qlin v w (col 0 j) := by
  unfold bigdot
  rw [sum_col, Fin.sum_univ_four]
  simp only [bigW, qlin, join_col0, join_col1, join_col2, join_col3, dot, quarter]
  rw [sum_mul_neg (f := fun c => v (col 1 c)) (g := fun c => w 1 c j) (fun c => hv _) (fun c => hw 1 c j),
    sum_mul_neg (f := fun c => v (col 2 c)) (g := fun c => w 2 c j) (fun c => hv _) (fun c => hw 2 c j),
    sum_mul_neg (f := fun c => v (col 3 c)) (g := fun c => w 3 c j) (fun c => hv _) (fun c => hw 3 c j)]
  simp only [← sub_eq_add_neg]

theorem bigdot_bigW_col1 : bigdot v (bigW w) (col 1 j) = qlin v w (col 1 j) := by
  unfold bigdot
  rw [sum_col, Fin.sum_univ_four]
  simp only [bigW, qlin, join_col0, join_col1, join_col2, join_col3, dot, quarter]
  rw [sum_mul_neg (f := fun c => v (col 2 c)) (g := fun c => w 3 c j) (fun c => hv _) (fun c => hw 3 c j)]
  simp only [← sub_eq_add_neg]

theorem bigdot_bigW_col2 : bigdot v (bigW w) (col 2 j) = qlin v w (col 2 j) := by
  unfold bigdot
  rw [sum_col, Fin.sum_univ_four]
  simp only [bigW, qlin, join_col0, join_col1, join_col2, join_col3, dot, quarter]
  rw [sum_mul_neg (f := fun c => v (col 3 c)) (g := fun c => w 1 c j) (fun c => hv _) (fun c => hw 1 c j)]
  simp only [← sub_eq_add_neg]

theorem bigdot_bigW_col3 : bigdot v (bigW w) (col 3 j) = qlin v w (col 3 j) := by
  unfold bigdot
  rw [sum_col, Fin.sum_univ_four]
  simp only [bigW, qlin, join_col0, join_col1, join_col2, join_col3, dot, quarter]
  rw [sum_mul_neg (f := fun c => v (col 1 c)) (g := fun c => w 2 c j) (fun c => hv _) (fun c => hw 2 c j)]
  simp only [← sub_eq_add_neg]

omit j in
/-- A real row times the signed block matrix of real weights is the quaternion layer of sixteen small products. -/
theorem bigdot_bigW (q : Fin 1024) : bigdot v (bigW w) q = qlin v w q := by
  obtain ⟨b, j, rfl⟩ := exists_col q
  match b with
  | ⟨0, _⟩ => exact bigdot_bigW_col0 hv hw j
  | ⟨1, _⟩ => exact bigdot_bigW_col1 hv hw j
  | ⟨2, _⟩ => exact bigdot_bigW_col2 hv hw j
  | ⟨3, _⟩ => exact bigdot_bigW_col3 hv hw j
  | ⟨n + 4, h⟩ => exact absurd h (by omega)

end Big

/-! ## The two normalisations -/

/-- For a positive real `S`: `a · (1/√S) = a / √S`, at any extended real `a`. -/
theorem norm_entry (a : EReal) {S : ℝ} (hS : 0 < S) :
    a * Ideal.rsqrt (S : EReal) = Ideal.div a (Ideal.sqrt (S : EReal)) := by
  have hne : Real.sqrt S ≠ 0 := (Real.sqrt_pos.2 hS).ne'
  rw [Ideal.rsqrt_coe, Ideal.sqrt_coe, if_neg (not_lt.2 hS.le), if_neg hS.ne', if_neg (not_lt.2 hS.le), Ideal.div_coe hne, one_div]

/-- The sum of four real squares and a positive real is a positive real. -/
theorem sumsq_pos {a : Fin 1024 → EReal} (ha : ∀ c, IsReal (a c)) {ε : ℝ} (hε : 0 < ε) (j : Fin 256) :
    ∃ S : ℝ, 0 < S ∧ sumsq a (ε : EReal) j = (S : EReal) := by
  choose r hr using ha
  refine ⟨r (col 0 j) * r (col 0 j) + r (col 1 j) * r (col 1 j) + r (col 2 j) * r (col 2 j)
    + r (col 3 j) * r (col 3 j) + ε, ?_, ?_⟩
  · have h0 := mul_self_nonneg (r (col 0 j)); have h1 := mul_self_nonneg (r (col 1 j))
    have h2 := mul_self_nonneg (r (col 2 j)); have h3 := mul_self_nonneg (r (col 3 j))
    linarith
  · simp only [sumsq, quarter, hr, ← EReal.coe_mul, ← EReal.coe_add]

theorem norm_quarter {a : Fin 1024 → EReal} (ha : ∀ c, IsReal (a c)) {ε : ℝ} (hε : 0 < ε) (k : Fin 4) (j : Fin 256) :
    quarter a k j * Ideal.rsqrt (sumsq a (ε : EReal) j) = Ideal.div (quarter a k j) (Ideal.sqrt (sumsq a (ε : EReal) j)) := by
  obtain ⟨S, hS, h⟩ := sumsq_pos ha hε j
  rw [h]
  exact norm_entry _ hS

/-- On a real row, with a positive constant, the two normalisations agree. -/
theorem normRsqrt_eq_normDiv {a : Fin 1024 → EReal} (ha : ∀ c, IsReal (a c)) {ε : ℝ} (hε : 0 < ε) :
    normRsqrt a (ε : EReal) = normDiv a (ε : EReal) := by
  unfold normRsqrt normDiv
  simp only [norm_quarter ha hε]

theorem div_real {a : Fin 1024 → EReal} (ha : ∀ c, IsReal (a c)) {ε : ℝ} (hε : 0 < ε) (k : Fin 4) (j : Fin 256) :
    IsReal (Ideal.div (quarter a k j) (Ideal.sqrt (sumsq a (ε : EReal) j))) := by
  obtain ⟨S, hS, h⟩ := sumsq_pos ha hε j
  have hne : Real.sqrt S ≠ 0 := (Real.sqrt_pos.2 hS).ne'
  rw [h, Ideal.sqrt_coe, if_neg (not_lt.2 hS.le), Ideal.div_coe hne]
  exact (ha _).mul (IsReal.coe _)

theorem normDiv_real {a : Fin 1024 → EReal} (ha : ∀ c, IsReal (a c)) {ε : ℝ} (hε : 0 < ε) (q : Fin 1024) :
    IsReal (normDiv a (ε : EReal) q) :=
  join_all _ _ _ _ IsReal (div_real ha hε 0) (div_real ha hε 1) (div_real ha hε 2) (div_real ha hε 3) q

/-! ## The two descriptions of the whole computation agree -/

section Whole
variable {x : Fin 1024 → EReal} {wq wk wv wo : Fin 4 → Fin 256 → Fin 256 → EReal}
  (hx : ∀ c, IsReal (x c)) (hwq : ∀ a c j, IsReal (wq a c j)) (hwk : ∀ a c j, IsReal (wk a c j))
  (hwv : ∀ a c j, IsReal (wv a c j)) (hwo : ∀ a c j, IsReal (wo a c j)) {s ε : ℝ} (hε : 0 < ε)
include hx hwq hwk hε

theorem logits_real (c : Fin 1024) : IsReal (ham (fun q => qlin x wq q * (s : EReal)) (qlin x wk) c) :=
  ham_real (fun c => (qlin_real hx hwq c).mul (IsReal.coe s)) (qlin_real hx hwk) c

theorem attRsqrt_eq : attRsqrt x (bigW wq) (bigW wk) (s : EReal) (ε : EReal) = attDiv x wq wk (s : EReal) (ε : EReal) := by
  unfold attRsqrt attDiv
  rw [show (fun q => bigdot x (bigW wq) q * (s : EReal)) = fun q => qlin x wq q * (s : EReal) from
      funext fun q => by rw [bigdot_bigW hx hwq],
    show bigdot x (bigW wk) = qlin x wk from funext (bigdot_bigW hx hwk)]
  exact normRsqrt_eq_normDiv (logits_real hx hwq hwk hε) hε

theorem attDiv_real (c : Fin 1024) : IsReal (attDiv x wq wk (s : EReal) (ε : EReal) c) :=
  normDiv_real (logits_real hx hwq hwk hε) hε c

include hwv hwo in
theorem outRsqrt_eq : outRsqrt x (bigW wq) (bigW wk) (bigW wv) (bigW wo) (s : EReal) (ε : EReal)
    = outDiv x wq wk wv wo (s : EReal) (ε : EReal) := by
  unfold outRsqrt outDiv
  rw [attRsqrt_eq hx hwq hwk hε, show bigdot x (bigW wv) = qlin x wv from funext (bigdot_bigW hx hwv)]
  exact funext (bigdot_bigW (fun c => ham_real (attDiv_real hx hwq hwk hε) (qlin_real hx hwv) c) hwo)

end Whole

/-! ## The two constants -/

/-- The scale of the queries is a real number. -/
theorem scale_real : ∃ s : ℝ, scale = (s : EReal) := by
  refine ⟨(16106127 : ℝ) * (2 : ℝ) ^ (-28 : ℤ), ?_⟩
  unfold scale
  simp [Ideal.ofBits, Ideal.ieee, -EReal.coe_mul]

/-- The constant under the square root is a positive real number. -/
theorem eps_pos : ∃ ε : ℝ, 0 < ε ∧ eps = (ε : EReal) := by
  refine ⟨(13743895 : ℝ) * (2 : ℝ) ^ (-37 : ℤ), by positivity, ?_⟩
  unfold eps
  simp [Ideal.ofBits, Ideal.ieee, -EReal.coe_mul]

end Cert.QSpec

end
-- ==== Proof.KValue.lean ====
/-
  The kernel's two result arrays after the run, as whole-array functions of the argument arrays.

  Grid point t handles rows 512·t … 512·t + 511 of the input and of both results; the four weight matrices are
  staged whole at every point. So what point t writes back is the block of rows 512·t … of ONE whole-array
  function — row by row, the output row and the attention row of the same input row —, the 64 blocks cover the
  arrays, and the arrays end holding that function. With the host's four block matrices read as signed copies of
  the small weight matrices, and every input entry a real number, that function is the specification's.
-/
import proofs.«104706_j62654982914287_2_alg».proof.Proof.FrameIdeal
import proofs.«104706_j62654982914287_2_alg».proof.Proof.KBlock
import proofs.«104706_j62654982914287_2_alg».proof.Proof.KHost
import proofs.«104706_j62654982914287_2_alg».proof.Proof.QLaws
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.QSpec Cert.KernelIdeal.KPay Cert.KernelIdeal.KBlock
open Idealize.ShloMosaic.Pipeline (Dat)

variable (m : (ℓ : Loc nD τ sig) → Buf (Elt Ideal) ℓ) (ρ : Dev nD → PrngReg)

/-- The printed index maps over the grid: the input's and both results' blocks are the t-th blocks of rows, the
    weight matrices' blocks are the whole matrices. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The attention array from the input array and the two block matrices: row by row. -/
def G6 (X : S32768x1024.Idx → EReal) (Wq Wk : S1024x1024.Idx → EReal) : S32768x1024.Idx → EReal :=
  fun i => attRsqrt (fun cc => X (ix2 (i 0) cc)) (mat Wq) (mat Wk) scale eps (i 1)

/-- The output array from the input array and the four block matrices: row by row. -/
def G5 (X : S32768x1024.Idx → EReal) (Wq Wk Wv Wo : S1024x1024.Idx → EReal) : S32768x1024.Idx → EReal :=
  fun i => outRsqrt (fun cc => X (ix2 (i 0) cc)) (mat Wq) (mat Wk) (mat Wv) (mat Wo) scale eps (i 1)

set_option maxHeartbeats 4000000 in
/-- What point t writes back to the attention array is block t of `G6`. -/
theorem flushed6_eq (c : Dev nD) (t : Fin cfg0.N) :
    (Hand.dats m 0 c).flushed 6 t = ((cfg0.win 6).blk t).view.read (Elt Ideal)
      (G6 (Hand.V m c main_arg0) (Hand.V m c main_v18) (Hand.V m c main_v37)) := by
  show (cfg0.win 6).cut (grid0.coords t) ((Hand.dats m 0 c).after 6 t) = _
  rw [Hand.after0_6, out0_6_eq (Hand.iblk m c 0 t) (Hand.iblk m c 1 t) (Hand.iblk m c 2 t) (Hand.iblk m c 3 t) (Hand.iblk m c 4 t)]
  obtain ⟨e00, e01, e10, e11, e20, e21, e30, e31, e40, e41, e50, e51, e60, e61⟩ := idx_facts t
  funext j
  show attRsqrt (fun cc => Hand.V m c main_arg0 (((cfg0.win 0).blk t).view.emb (ix2 (j 0) cc)))
      (fun cc q => Hand.V m c main_v18 (((cfg0.win 1).blk t).view.emb (ix2 cc q)))
      (fun cc q => Hand.V m c main_v37 (((cfg0.win 2).blk t).view.emb (ix2 cc q))) scale eps (j 1)
    = attRsqrt (fun cc => Hand.V m c main_arg0 (ix2 ((((cfg0.win 6).blk t).view.emb j) 0) cc))
      (fun cc q => Hand.V m c main_v18 (ix2 cc q)) (fun cc q => Hand.V m c main_v37 (ix2 cc q)) scale eps
      ((((cfg0.win 6).blk t).view.emb j) 1)
  have hj0 : (j 0).val < 512 := (j 0).isLt
  have hj1 : (j 1).val < 1024 := (j 1).isLt
  have hX : ∀ cc : Fin 1024, ((cfg0.win 0).blk t).view.emb (ix2 (j 0) cc) = ix2 ((((cfg0.win 6).blk t).view.emb j) 0) cc := by
    intro cc; funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * cc.val = cc.val; omega
  have hW1 : ∀ cc q : Fin 1024, ((cfg0.win 1).blk t).view.emb (ix2 cc q) = ix2 cc q := by
    intro cc q; funext a; apply Fin.ext
    match a with
    | ⟨0, _⟩ => show win0_1.index t (0 : Fin 2) * 1024 + 1 * cc.val = cc.val; omega
    | ⟨1, _⟩ => show win0_1.index t (1 : Fin 2) * 1024 + 1 * q.val = q.val; omega
  have hW2 : ∀ cc q : Fin 1024, ((cfg0.win 2).blk t).view.emb (ix2 cc q) = ix2 cc q := by
    intro cc q; funext a; apply Fin.ext
    match a with
    | ⟨0, _⟩ => show win0_2.index t (0 : Fin 2) * 1024 + 1 * cc.val = cc.val; omega
    | ⟨1, _⟩ => show win0_2.index t (1 : Fin 2) * 1024 + 1 * q.val = q.val; omega
  have hq : (j 1) = (((cfg0.win 6).blk t).view.emb j) 1 :=
    Fin.ext (by show (j 1).val = win0_6.index t (1 : Fin 2) * 1024 + 1 * (j 1).val; omega)
  simp only [hX, hW1, hW2]
  exact congrArg _ hq

set_option maxHeartbeats 4000000 in
/-- What point t writes back to the output array is block t of `G5`. -/
theorem flushed5_eq (c : Dev nD) (t : Fin cfg0.N) :
    (Hand.dats m 0 c).flushed 5 t = ((cfg0.win 5).blk t).view.read (Elt Ideal)
      (G5 (Hand.V m c main_arg0) (Hand.V m c main_v18) (Hand.V m c main_v37) (Hand.V m c main_v56) (Hand.V m c main_v75)) := by
  show (cfg0.win 5).cut (grid0.coords t) ((Hand.dats m 0 c).after 5 t) = _
  rw [Hand.after0_5, out0_5_eq (Hand.iblk m c 0 t) (Hand.iblk m c 1 t) (Hand.iblk m c 2 t) (Hand.iblk m c 3 t) (Hand.iblk m c 4 t)]
  obtain ⟨e00, e01, e10, e11, e20, e21, e30, e31, e40, e41, e50, e51, e60, e61⟩ := idx_facts t
  funext j
  show outRsqrt (fun cc => Hand.V m c main_arg0 (((cfg0.win 0).blk t).view.emb (ix2 (j 0) cc)))
      (fun cc q => Hand.V m c main_v18 (((cfg0.win 1).blk t).view.emb (ix2 cc q)))
      (fun cc q => Hand.V m c main_v37 (((cfg0.win 2).blk t).view.emb (ix2 cc q)))
      (fun cc q => Hand.V m c main_v56 (((cfg0.win 3).blk t).view.emb (ix2 cc q)))
      (fun cc q => Hand.V m c main_v75 (((cfg0.win 4).blk t).view.emb (ix2 cc q))) scale eps (j 1)
    = outRsqrt (fun cc => Hand.V m c main_arg0 (ix2 ((((cfg0.win 5).blk t).view.emb j) 0) cc))
      (fun cc q => Hand.V m c main_v18 (ix2 cc q)) (fun cc q => Hand.V m c main_v37 (ix2 cc q))
      (fun cc q => Hand.V m c main_v56 (ix2 cc q)) (fun cc q => Hand.V m c main_v75 (ix2 cc q)) scale eps
      ((((cfg0.win 5).blk t).view.emb j) 1)
  have hj0 : (j 0).val < 512 := (j 0).isLt
  have hj1 : (j 1).val < 1024 := (j 1).isLt
  have hX : ∀ cc : Fin 1024, ((cfg0.win 0).blk t).view.emb (ix2 (j 0) cc) = ix2 ((((cfg0.win 5).blk t).view.emb j) 0) cc := by
    intro cc; funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * cc.val = cc.val; omega
  have hW1 : ∀ cc q : Fin 1024, ((cfg0.win 1).blk t).view.emb (ix2 cc q) = ix2 cc q := by
    intro cc q; funext a; apply Fin.ext
    match a with
    | ⟨0, _⟩ => show win0_1.index t (0 : Fin 2) * 1024 + 1 * cc.val = cc.val; omega
    | ⟨1, _⟩ => show win0_1.index t (1 : Fin 2) * 1024 + 1 * q.val = q.val; omega
  have hW2 : ∀ cc q : Fin 1024, ((cfg0.win 2).blk t).view.emb (ix2 cc q) = ix2 cc q := by
    intro cc q; funext a; apply Fin.ext
    match a with
    | ⟨0, _⟩ => show win0_2.index t (0 : Fin 2) * 1024 + 1 * cc.val = cc.val; omega
    | ⟨1, _⟩ => show win0_2.index t (1 : Fin 2) * 1024 + 1 * q.val = q.val; omega
  have hW3 : ∀ cc q : Fin 1024, ((cfg0.win 3).blk t).view.emb (ix2 cc q) = ix2 cc q := by
    intro cc q; funext a; apply Fin.ext
    match a with
    | ⟨0, _⟩ => show win0_3.index t (0 : Fin 2) * 1024 + 1 * cc.val = cc.val; omega
    | ⟨1, _⟩ => show win0_3.index t (1 : Fin 2) * 1024 + 1 * q.val = q.val; omega
  have hW4 : ∀ cc q : Fin 1024, ((cfg0.win 4).blk t).view.emb (ix2 cc q) = ix2 cc q := by
    intro cc q; funext a; apply Fin.ext
    match a with
    | ⟨0, _⟩ => show win0_4.index t (0 : Fin 2) * 1024 + 1 * cc.val = cc.val; omega
    | ⟨1, _⟩ => show win0_4.index t (1 : Fin 2) * 1024 + 1 * q.val = q.val; omega
  have hq : (j 1) = (((cfg0.win 5).blk t).view.emb j) 1 :=
    Fin.ext (by show (j 1).val = win0_5.index t (1 : Fin 2) * 1024 + 1 * (j 1).val; omega)
  simp only [hX, hW1, hW2, hW3, hW4]
  exact congrArg _ hq

/-- An index of a result array is in point t's block iff each coordinate is in the block's range on its axis. -/
theorem mem_blk5 (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v76_0).slice (win0_5.rect t)).set ↔ _
  rw [View.set_slice_whole, Rect.mem_set_unit]
  exact Iff.rfl

theorem mem_blk6 (t : Fin cfg0.N) (i : S32768x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v76_1).slice (win0_6.rect t)).set ↔ _
  rw [View.set_slice_whole, Rect.mem_set_unit]
  exact Iff.rfl

/-- The point whose block holds row r is r / 512. -/
def pointOf (i : S32768x1024.Idx) : Fin cfg0.N :=
  Fin.cast N_0.symm ⟨(i 0).val / 512, by have h : (i 0).val < 32768 := (i 0).isLt; omega⟩

theorem pointOf_val (i : S32768x1024.Idx) : (pointOf i).val = (i 0).val / 512 := rfl

/-- Every index of the output array is in some point's block. -/
theorem cover5 (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  refine ⟨pointOf i, flush0_5 _, ?_⟩
  obtain ⟨e00, e01, e10, e11, e20, e21, e30, e31, e40, e41, e50, e51, e60, e61⟩ := idx_facts (pointOf i)
  have hp := pointOf_val i
  rw [mem_blk5]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1024 ≤ (i 1).val ∧ (i 1).val < win0_5.index (pointOf i) (1 : Fin 2) * 1024 + 1024; omega

/-- Every index of the attention array is in some point's block. -/
theorem cover6 (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  refine ⟨pointOf i, flush0_6 _, ?_⟩
  obtain ⟨e00, e01, e10, e11, e20, e21, e30, e31, e40, e41, e50, e51, e60, e61⟩ := idx_facts (pointOf i)
  have hp := pointOf_val i
  rw [mem_blk6]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 1024 ≤ (i 1).val ∧ (i 1).val < win0_6.index (pointOf i) (1 : Fin 2) * 1024 + 1024; omega

/-- The two result arrays after the run. -/
theorem final5 (c : Dev nD) : (Hand.dats m 0 c).arrAt 5 cfg0.N
    = G5 (Hand.V m c main_arg0) (Hand.V m c main_v18) (Hand.V m c main_v37) (Hand.V m c main_v56) (Hand.V m c main_v75) :=
  (Hand.dats m 0 c).arrAt_eq_of_cover 5 _ (fun t _ => flushed5_eq m c t) cover5

theorem final6 (c : Dev nD) : (Hand.dats m 0 c).arrAt 6 cfg0.N
    = G6 (Hand.V m c main_arg0) (Hand.V m c main_v18) (Hand.V m c main_v37) :=
  (Hand.dats m 0 c).arrAt_eq_of_cover 6 _ (fun t _ => flushed6_eq m c t) cover6

/-! ## The specification's arrays -/

section Spec
variable (X : S32768x1024.Idx → EReal) (wq wk wv wo : S4x256x256.Idx → EReal)
  (hX : ∀ i, IsReal (X i)) (hwq : ∀ i, IsReal (wq i)) (hwk : ∀ i, IsReal (wk i)) (hwv : ∀ i, IsReal (wv i))
  (hwo : ∀ i, IsReal (wo i))

/-- A host-built block matrix, entry by entry, is the signed grid of the small matrices. -/
theorem mat_bigArr (w : S4x256x256.Idx → EReal) : mat (KHost.bigArr (F := Ideal) w) = bigW (wOf w) :=
  funext fun cc => funext fun q => KHost.bigArr_apply w cc q

include hX hwq hwk in
theorem G6_eq : G6 X (KHost.bigArr (F := Ideal) wq) (KHost.bigArr (F := Ideal) wk) = arrAtt X wq wk := by
  obtain ⟨s, hs⟩ := scale_real
  obtain ⟨ε, hε, he⟩ := eps_pos
  funext i
  unfold G6 arrAtt
  rw [mat_bigArr, mat_bigArr, hs, he]
  exact congrFun (attRsqrt_eq (x := rowOf X (i 0)) (fun _ => hX _) (fun _ _ _ => hwq _) (fun _ _ _ => hwk _) hε) (i 1)

include hX hwq hwk hwv hwo in
theorem G5_eq : G5 X (KHost.bigArr (F := Ideal) wq) (KHost.bigArr (F := Ideal) wk) (KHost.bigArr (F := Ideal) wv)
    (KHost.bigArr (F := Ideal) wo) = arrY X wq wk wv wo := by
  obtain ⟨s, hs⟩ := scale_real
  obtain ⟨ε, hε, he⟩ := eps_pos
  funext i
  unfold G5 arrY
  rw [mat_bigArr, mat_bigArr, mat_bigArr, mat_bigArr, hs, he]
  exact congrFun (outRsqrt_eq (x := rowOf X (i 0)) (fun _ => hX _) (fun _ _ _ => hwq _) (fun _ _ _ => hwk _)
    (fun _ _ _ => hwv _) (fun _ _ _ => hwo _) hε) (i 1)

end Spec

/-! ## The run, read -/

/-- The run of the idealized kernel from a memory whose argument entries are real numbers: both results at the
    specification's arrays of the arguments, the arguments unchanged. -/
theorem run
    (hreal : ∀ c : Dev nD, (∀ i, IsReal (m ((c.tc : Thread nD τ).loc main_arg0) i))
      ∧ (∀ i, IsReal (m ((c.tc : Thread nD τ).loc main_arg1) i)) ∧ (∀ i, IsReal (m ((c.tc : Thread nD τ).loc main_arg2) i))
      ∧ (∀ i, IsReal (m ((c.tc : Thread nD τ).loc main_arg3) i)) ∧ (∀ i, IsReal (m ((c.tc : Thread nD τ).loc main_arg4) i))) :
    θ_run (defs (F := Ideal)) (onTc (τ := τ) (main (F := Ideal))) ⟨m, fun _ => 0, ρ⟩ fun r => ∀ c : Dev nD,
      r.2.mem ((c.tc : Thread nD τ).loc main_v76_0) = arrY (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v76_1) = arrAtt (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4⟩ := hreal c
    refine ⟨?_, ?_,
      ((h c).1 0).trans (((Hand.dats m 0 c).arrAt_in 0 rfl _).trans ((Hand.A_eq m c 0).trans (Hand.V_main_arg0 m c))),
      ((h c).2 main_arg1 (Pipeline.mem_restRefs_of main_arg1 (by decide) (by decide))).trans (Hand.V_main_arg1 m c),
      ((h c).2 main_arg2 (Pipeline.mem_restRefs_of main_arg2 (by decide) (by decide))).trans (Hand.V_main_arg2 m c),
      ((h c).2 main_arg3 (Pipeline.mem_restRefs_of main_arg3 (by decide) (by decide))).trans (Hand.V_main_arg3 m c),
      ((h c).2 main_arg4 (Pipeline.mem_restRefs_of main_arg4 (by decide) (by decide))).trans (Hand.V_main_arg4 m c)⟩
    · refine (((h c).1 5).trans (final5 m c)).trans ?_
      rw [Hand.V_main_arg0, KHost.V_main_v18, KHost.V_main_v37, KHost.V_main_v56, KHost.V_main_v75]
      exact G5_eq _ _ _ _ _ h0 h1 h2 h3 h4
    · refine (((h c).1 6).trans (final6 m c)).trans ?_
      rw [Hand.V_main_arg0, KHost.V_main_v18, KHost.V_main_v37]
      exact G6_eq _ _ _ h0 h1 h2)
    (Hand.run_main m ρ)

end Cert.KernelIdeal.KValue

end
-- ==== Proof.RefRead.lean ====
/-
  The reference computation read as whole arrays.

  The reference applies a quaternion dense layer to the input three times, multiplies two of the results as
  quaternions position by position, normalises the product by the length of each quaternion, multiplies the
  normalised array with the third layer's result and applies a fourth layer. Every one of these steps acts on
  each row of 32768 separately: a row of width 1024 is cut into its four blocks of 256 columns, the blocks are
  combined, and four combined blocks are laid side by side again.

  Here each step is written once as a function of whole arrays, with the same operations in the same order as
  the run states them, and read at one entry `(p, q)`: the layer of an array at `(p, q)` is the row-wise layer of
  row `p` at `q`, and likewise for the quaternion product and the normalisation. Composing the readings, the
  two results of the run are the two arrays of the row-wise specification.
-/
import proofs.«104706_j62654982914287_2_alg».proof.Proof.Gen.ReferenceIdeal.Run
import proofs.«104706_j62654982914287_2_alg».proof.Proof.QSpec
import proofs.«104706_j62654982914287_2_alg».proof.Proof.LibContractPlain
import proofs.«104706_j62654982914287_2_alg».proof.Proof.LibConcatFour
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Value Idealize.ShloMosaic
  Idealize.ShloMosaic.ValueIdx Idealize.ShloMosaic.TcCoe Idealize.SL.Sem Idealize.ShloMosaic.StableHlo
  Cert.QSpec Cert.Lib.ConcatFour Cert.Lib.ContractPlain

/-- The arrays of the computation: a whole array of rows, one of its four column blocks, a weight array,
    one of its four small matrices. -/
abbrev Arr : Type := FVec Ideal S32768x1024 .f32
abbrev Blk : Type := FVec Ideal S32768x256 .f32
abbrev Wts : Type := FVec Ideal S4x256x256 .f32
abbrev Mat : Type := FVec Ideal S256x256 .f32

/-! ## The pieces of an array and of a weight array -/

/-- The four column blocks of an array: columns 0–255, 256–511, 512–767, 768–1023. -/
def blk0 (x : Arr) : Blk := extractStridedSlice S32768x256 ![0, 0] x slices_S32768x1024_S32768x256_0_0
def blk1 (x : Arr) : Blk := extractStridedSlice S32768x256 ![0, 256] x slices_S32768x1024_S32768x256_0_256
def blk2 (x : Arr) : Blk := extractStridedSlice S32768x256 ![0, 512] x slices_S32768x1024_S32768x256_0_512
def blk3 (x : Arr) : Blk := extractStridedSlice S32768x256 ![0, 768] x slices_S32768x1024_S32768x256_0_768

/-- The four small matrices of a weight array. -/
def mat0 (w : Wts) : Mat :=
  shapeCast _ (extractStridedSlice S1x256x256 ![0, 0, 0] w slices_S4x256x256_S1x256x256_0_0_0) shapeCasts_S1x256x256_S256x256
def mat1 (w : Wts) : Mat :=
  shapeCast _ (extractStridedSlice S1x256x256 ![1, 0, 0] w slices_S4x256x256_S1x256x256_1_0_0) shapeCasts_S1x256x256_S256x256
def mat2 (w : Wts) : Mat :=
  shapeCast _ (extractStridedSlice S1x256x256 ![2, 0, 0] w slices_S4x256x256_S1x256x256_2_0_0) shapeCasts_S1x256x256_S256x256
def mat3 (w : Wts) : Mat :=
  shapeCast _ (extractStridedSlice S1x256x256 ![3, 0, 0] w slices_S4x256x256_S1x256x256_3_0_0) shapeCasts_S1x256x256_S256x256

/-- Block `a` of an array at `(p, j)` is the array at `(p, 256·a + j)`. -/
theorem blk0_read (x : Arr) (p : Fin 32768) (j : Fin 256) : blk0 x (ix2 p j) = x (ix2 p (col 0 j)) :=
  slice2_axis1_apply 0 x _ p j (col 0 j) rfl
theorem blk1_read (x : Arr) (p : Fin 32768) (j : Fin 256) : blk1 x (ix2 p j) = x (ix2 p (col 1 j)) :=
  slice2_axis1_apply 256 x _ p j (col 1 j) rfl
theorem blk2_read (x : Arr) (p : Fin 32768) (j : Fin 256) : blk2 x (ix2 p j) = x (ix2 p (col 2 j)) :=
  slice2_axis1_apply 512 x _ p j (col 2 j) rfl
theorem blk3_read (x : Arr) (p : Fin 32768) (j : Fin 256) : blk3 x (ix2 p j) = x (ix2 p (col 3 j)) :=
  slice2_axis1_apply 768 x _ p j (col 3 j) rfl

/-- Small matrix `a` of a weight array at `(c, j)` is the weight array at `(a, c, j)`: the cut along the first
    axis keeps one plane, and dropping that axis of length one keeps the two remaining coordinates. -/
theorem mat0_read (w : Wts) (c j : Fin 256) : mat0 w (ix2 c j) = w (ix3 0 c j) := by
  unfold mat0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem mat1_read (w : Wts) (c j : Fin 256) : mat1 w (ix2 c j) = w (ix3 1 c j) := by
  unfold mat1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem mat2_read (w : Wts) (c j : Fin 256) : mat2 w (ix2 c j) = w (ix3 2 c j) := by
  unfold mat2
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem mat3_read (w : Wts) (c j : Fin 256) : mat3 w (ix2 c j) = w (ix3 3 c j) := by
  unfold mat3
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-! ## The dense layer -/

/-- A block times a small matrix. -/
abbrev prod (a : Blk) (b : Mat) : Blk :=
  Host.dotGeneral (F := Ideal) dot_S32768x256_S256x256_S32768x256_1_0_0_1_n_n none a b

/-- Its entry `(p, j)` is the sum over `c` of `a (p, c) · b (c, j)`. -/
theorem prod_read (a : Blk) (b : Mat) (p : Fin 32768) (j : Fin 256) :
    prod a b (ix2 p j) = ∑ c : Fin 256, a (ix2 p c) * b (ix2 c j) :=
  hostDot_apply _ rfl none a b p j

/-- Sixteen products of four blocks with four small matrices, combined with the signs of the quaternion
    product and laid side by side. -/
def comb (x0 x1 x2 x3 : Blk) (w0 w1 w2 w3 : Mat) : Arr :=
  concatenate S32768x1024 1 [⟨S32768x256, (subf (subf (subf (prod x0 w0) (prod x1 w1)) (prod x2 w2)) (prod x3 w3))⟩,
    ⟨S32768x256, (addf (subf (addf (prod x0 w1) (prod x1 w0)) (prod x2 w3)) (prod x3 w2))⟩,
    ⟨S32768x256, (subf (addf (addf (prod x0 w2) (prod x1 w3)) (prod x2 w0)) (prod x3 w1))⟩,
    ⟨S32768x256, (addf (addf (subf (prod x0 w3) (prod x1 w2)) (prod x2 w1)) (prod x3 w0))⟩]
    concatenates_S32768x256_S32768x256_S32768x256_S32768x256_S32768x1024_d1

/-- Row `p` of the combination is the four combined rows laid end to end. -/
theorem comb_read (x0 x1 x2 x3 : Blk) (w0 w1 w2 w3 : Mat) (p : Fin 32768) (q : Fin 1024) :
    comb x0 x1 x2 x3 w0 w1 w2 w3 (ix2 p q)
      = join
          (fun j => prod x0 w0 (ix2 p j) - prod x1 w1 (ix2 p j) - prod x2 w2 (ix2 p j) - prod x3 w3 (ix2 p j))
          (fun j => prod x0 w1 (ix2 p j) + prod x1 w0 (ix2 p j) - prod x2 w3 (ix2 p j) + prod x3 w2 (ix2 p j))
          (fun j => prod x0 w2 (ix2 p j) + prod x1 w3 (ix2 p j) + prod x2 w0 (ix2 p j) - prod x3 w1 (ix2 p j))
          (fun j => prod x0 w3 (ix2 p j) - prod x1 w2 (ix2 p j) + prod x2 w1 (ix2 p j) + prod x3 w0 (ix2 p j)) q :=
  concat4_apply (show 1024 = 256 + 256 + 256 + 256 from rfl) _ _ _ _ _ p q

/-- The dense layer of an array with a weight array. -/
def lin (x : Arr) (w : Wts) : Arr :=
  comb (blk0 x) (blk1 x) (blk2 x) (blk3 x) (mat0 w) (mat1 w) (mat2 w) (mat3 w)

/-- Row `p` of the layer is the row-wise layer of row `p`. -/
theorem lin_read (x : Arr) (w : Wts) (p : Fin 32768) (q : Fin 1024) :
    lin x w (ix2 p q) = qlin (rowOf x p) (wOf w) q := by
  unfold lin
  rw [comb_read]
  simp only [prod_read, blk0_read, blk1_read, blk2_read, blk3_read, mat0_read, mat1_read, mat2_read, mat3_read]
  rfl

theorem rowOf_lin (x : Arr) (w : Wts) (p : Fin 32768) : rowOf (lin x w) p = qlin (rowOf x p) (wOf w) :=
  funext fun q => lin_read x w p q

/-! ## The scale, the quaternion product and the normalisation -/

/-- An array times the scale. -/
def scaled (y : Arr) : Arr :=
  mulf y (broadcastInDim S32768x1024 ![] bcast_S_S32768x1024 (constant (F := Ideal) S_ .f32 0x3D75C28F#32))

theorem scaled_read (y : Arr) (i : S32768x1024.Idx) : scaled y i = y i * scale := rfl

/-- The quaternion product of two arrays, position by position. -/
def hamArr (a b : Arr) : Arr :=
  concatenate S32768x1024 1 [⟨S32768x256, (subf (subf (subf (mulf (blk0 a) (blk0 b)) (mulf (blk1 a) (blk1 b))) (mulf (blk2 a) (blk2 b))) (mulf (blk3 a) (blk3 b)))⟩,
    ⟨S32768x256, (subf (addf (addf (mulf (blk0 a) (blk1 b)) (mulf (blk1 a) (blk0 b))) (mulf (blk2 a) (blk3 b))) (mulf (blk3 a) (blk2 b)))⟩,
    ⟨S32768x256, (addf (addf (subf (mulf (blk0 a) (blk2 b)) (mulf (blk1 a) (blk3 b))) (mulf (blk2 a) (blk0 b))) (mulf (blk3 a) (blk1 b)))⟩,
    ⟨S32768x256, (addf (subf (addf (mulf (blk0 a) (blk3 b)) (mulf (blk1 a) (blk2 b))) (mulf (blk2 a) (blk1 b))) (mulf (blk3 a) (blk0 b)))⟩]
    concatenates_S32768x256_S32768x256_S32768x256_S32768x256_S32768x1024_d1

/-- Row `p` of the product is the row-wise product of the two rows `p`. -/
theorem hamArr_read (a b : Arr) (p : Fin 32768) (q : Fin 1024) :
    hamArr a b (ix2 p q) = ham (rowOf a p) (rowOf b p) q := by
  unfold hamArr
  refine (concat4_apply (show 1024 = 256 + 256 + 256 + 256 from rfl) _ _ _ _ _ p q).trans ?_
  simp only [subf_apply, addf_apply, mulf_apply, blk0_read, blk1_read, blk2_read, blk3_read]
  rfl

theorem rowOf_hamArr (a b : Arr) (p : Fin 32768) : rowOf (hamArr a b) p = ham (rowOf a p) (rowOf b p) :=
  funext fun q => hamArr_read a b p q

/-- The length of the quaternion at each position: the square root of the four squares plus the constant. -/
def len (a : Arr) : Blk :=
  Host.sqrt (F := Ideal) (addf (addf (addf (addf (mulf (blk0 a) (blk0 a)) (mulf (blk1 a) (blk1 a))) (mulf (blk2 a) (blk2 a))) (mulf (blk3 a) (blk3 a))) (broadcastInDim S32768x256 ![] bcast_S_S32768x256 (constant (F := Ideal) S_ .f32 0x38D1B717#32)))

theorem len_read (a : Arr) (p : Fin 32768) (j : Fin 256) :
    len a (ix2 p j) = Ideal.sqrt (sumsq (rowOf a p) eps j) := by
  show Ideal.sqrt (blk0 a (ix2 p j) * blk0 a (ix2 p j) + blk1 a (ix2 p j) * blk1 a (ix2 p j)
    + blk2 a (ix2 p j) * blk2 a (ix2 p j) + blk3 a (ix2 p j) * blk3 a (ix2 p j) + eps) = _
  rw [blk0_read, blk1_read, blk2_read, blk3_read]
  rfl

/-- An array normalised position by position. -/
def normArr (a : Arr) : Arr :=
  concatenate S32768x1024 1 [⟨S32768x256, (Host.divf (F := Ideal) (blk0 a) (len a))⟩, ⟨S32768x256, (Host.divf (F := Ideal) (blk1 a) (len a))⟩,
    ⟨S32768x256, (Host.divf (F := Ideal) (blk2 a) (len a))⟩, ⟨S32768x256, (Host.divf (F := Ideal) (blk3 a) (len a))⟩]
    concatenates_S32768x256_S32768x256_S32768x256_S32768x256_S32768x1024_d1

/-- Row `p` of the normalised array is row `p` normalised. -/
theorem normArr_read (a : Arr) (p : Fin 32768) (q : Fin 1024) :
    normArr a (ix2 p q) = normDiv (rowOf a p) eps q := by
  unfold normArr
  refine (concat4_apply (show 1024 = 256 + 256 + 256 + 256 from rfl) _ _ _ _ _ p q).trans ?_
  show join (fun j => Ideal.div (blk0 a (ix2 p j)) (len a (ix2 p j)))
    (fun j => Ideal.div (blk1 a (ix2 p j)) (len a (ix2 p j)))
    (fun j => Ideal.div (blk2 a (ix2 p j)) (len a (ix2 p j)))
    (fun j => Ideal.div (blk3 a (ix2 p j)) (len a (ix2 p j))) q = _
  simp only [blk0_read, blk1_read, blk2_read, blk3_read, len_read]
  rfl

/-! ## The two results as arrays -/

/-- The attention array: the normalised product of the scaled layer `wq` with the layer `wk`. -/
def attArr (x : Arr) (wq wk : Wts) : Arr := normArr (hamArr (scaled (lin x wq)) (lin x wk))

/-- The output array: the layer `wo` of the product of the attention array with the layer `wv`. -/
def outArr (x : Arr) (wq wk wv wo : Wts) : Arr := lin (hamArr (attArr x wq wk) (lin x wv)) wo

theorem rowOf_scaled_lin (x : Arr) (w : Wts) (p : Fin 32768) :
    rowOf (scaled (lin x w)) p = fun q => qlin (rowOf x p) (wOf w) q * scale :=
  funext fun q => by
    show lin x w (ix2 p q) * scale = _
    rw [lin_read]

theorem attArr_read (x : Arr) (wq wk : Wts) (p : Fin 32768) (q : Fin 1024) :
    attArr x wq wk (ix2 p q) = attDiv (rowOf x p) (wOf wq) (wOf wk) scale eps q := by
  unfold attArr attDiv
  rw [normArr_read, rowOf_hamArr, rowOf_scaled_lin, rowOf_lin]

theorem rowOf_attArr (x : Arr) (wq wk : Wts) (p : Fin 32768) :
    rowOf (attArr x wq wk) p = attDiv (rowOf x p) (wOf wq) (wOf wk) scale eps :=
  funext fun q => attArr_read x wq wk p q

theorem outArr_read (x : Arr) (wq wk wv wo : Wts) (p : Fin 32768) (q : Fin 1024) :
    outArr x wq wk wv wo (ix2 p q) = outDiv (rowOf x p) (wOf wq) (wOf wk) (wOf wv) (wOf wo) scale eps q := by
  unfold outArr outDiv
  rw [lin_read, rowOf_hamArr, rowOf_attArr, rowOf_lin]

/-- The two arrays are the specification's, index by index. -/
theorem attArr_eq (x : Arr) (wq wk : Wts) : attArr x wq wk = arrAtt x wq wk := by
  funext i
  obtain ⟨p, q, rfl⟩ : ∃ (p : Fin 32768) (q : Fin 1024), i = ix2 p q := ⟨i 0, i 1, eq_ix2 i⟩
  exact attArr_read x wq wk p q

theorem outArr_eq (x : Arr) (wq wk wv wo : Wts) : outArr x wq wk wv wo = arrY x wq wk wv wo := by
  funext i
  obtain ⟨p, q, rfl⟩ : ∃ (p : Fin 32768) (q : Fin 1024), i = ix2 p q := ⟨i 0, i 1, eq_ix2 i⟩
  exact outArr_read x wq wk wv wo p q

/-! ## The stages of the run are these arrays

Each named stage of the run is one of the functions above applied to earlier stages: the two sides are the same
operations on the same operands. -/

section Stages
variable (V0 : Valuation τ sig (Elt Ideal))

theorem v40_eq : res_main_v40 V0 = lin (V0 (Proc.devRef .tc main_arg0)) (V0 (Proc.devRef .tc main_arg2)) := rfl

theorem v83_eq :
    res_main_v83 V0 = scaled (lin (V0 (Proc.devRef .tc main_arg0)) (V0 (Proc.devRef .tc main_arg1))) := rfl

theorem v124_eq : res_main_v124 V0 = lin (V0 (Proc.devRef .tc main_arg0)) (V0 (Proc.devRef .tc main_arg3)) := rfl

theorem v161_eq : res_main_v161 V0 = hamArr (res_main_v83 V0) (res_main_v40 V0) := rfl

theorem v180_step : res_main_v180 V0 = normArr (res_main_v161 V0) := rfl

theorem v217_step : res_main_v217 V0 = hamArr (res_main_v180 V0) (res_main_v124 V0) := rfl

/-- The second result of the run is the attention array of the arguments. -/
theorem v180_eq :
    res_main_v180 V0
      = attArr (V0 (Proc.devRef .tc main_arg0)) (V0 (Proc.devRef .tc main_arg1)) (V0 (Proc.devRef .tc main_arg2)) :=
  (v180_step V0).trans (congrArg normArr ((v161_eq V0).trans (congrArg₂ hamArr (v83_eq V0) (v40_eq V0))))

/-- The fourth layer of the second product is the output array of the arguments. -/
theorem out_eq :
    lin (res_main_v217 V0) (V0 (Proc.devRef .tc main_arg4))
      = outArr (V0 (Proc.devRef .tc main_arg0)) (V0 (Proc.devRef .tc main_arg1)) (V0 (Proc.devRef .tc main_arg2))
          (V0 (Proc.devRef .tc main_arg3)) (V0 (Proc.devRef .tc main_arg4)) :=
  congrArg (fun a => lin a (V0 (Proc.devRef .tc main_arg4)))
    ((v217_step V0).trans (congrArg₂ hamArr (v180_eq V0) (v124_eq V0)))

end Stages

/-! ## The run -/

/-- On every device, from any memory with zero counters: every weakly fair execution of the reference terminates
    with its first result the specification's output array of the arguments, its second the specification's
    attention array, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v258) = Cert.QSpec.arrY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v180) = Cert.QSpec.arrAtt (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).1.trans (out_eq (launchContents m c))).trans (outArr_eq _ _ _ _ _),
        ((h c).2.1.trans (v180_eq (launchContents m c))).trans (attArr_eq _ _ _),
        (h c).2.2⟩)
    (Cert.ReferenceIdeal.Value.run (F := Ideal) m ρ)

end Cert.ReferenceIdeal.RefRead

end
-- ==== Proof.PreReal.lean ====
/-
  From the precondition to "every input entry is a real number".

  The precondition tests each of the five inputs entry by entry, `|v| < +∞`, takes the conjunction of all the
  tests of one input, and then the conjunction of the five. It holds when that single truth value is 1. A
  conjunction is 1 only when both its sides are, so each input's conjunction is 1; a conjunction over all
  entries that is 1 had a 1 at every entry; and an extended real whose absolute value is below `+∞` is neither
  infinity, hence a real number.

  The arrays are typed by the precondition's own shape names, `Cert.Pre_finite_inputs.S32768x1024` for the input
  and `Cert.Pre_finite_inputs.S4x256x256` for a weight array: index types `⟨2, ![32768, 1024]⟩.Idx` and
  `⟨3, ![4, 256, 256]⟩.Idx`, entries extended reals.
-/
import proofs.«104706_j62654982914287_2_alg».proof.Pre_finite_inputs
import proofs.«104706_j62654982914287_2_alg».proof.Proof.QLaws
import proofs.«104706_j62654982914287_2_alg».proof.Proof.LibFinite
import Idealize.ShloMosaic.Lib.ReduceAll
import Idealize.ShloMosaic.Lib.ValueIdx

namespace Cert.PreReal

open Idealize.ShloMosaic Cert.Pre_finite_inputs Cert.QSpec

/-- A shape with no axes has one index. -/
instance : Subsingleton S_.Idx := ⟨fun a b => funext fun d => d.elim0⟩

/-- One input's test: if the conjunction over all entries of `|x| < +∞` is 1, every entry of `x` is neither
    infinity. -/
theorem all_finite {s : Shape} {axes : List (Fin s.rank)} (x : FVec Ideal s .f32)
    (hb : S_.BroadcastsInDim s (![] : Fin 0 → Fin s.rank)) (h : s.ReducesTo axes S_) (hu : 0 < S_.numel)
    (init : IVec S_ 1)
    (e : Host.reduce IntOp.andi
      (cmpf .olt (Host.absf x) (broadcastInDim s ![] hb (constant (F := Ideal) S_ .f32 0x7F800000#32))) init h hu
      ValueIdx.ix0 = 1#1) (i : s.Idx) : x i ≠ ⊤ ∧ x i ≠ ⊥ :=
  Cert.LibFinite.finite_of_abs_lt (x i) (Host.reduce_andi_all _ init h hu _ e i)

/-- Under the precondition every entry of the input and of the four weight arrays is a real number. -/
theorem entries_real [Cert.Pre_finite_inputs.Facts] (x : FVec Ideal S32768x1024 .f32)
    (wq wk wv wo : FVec Ideal S4x256x256 .f32)
    (h : Cert.Pre_finite_inputs.fn (F := Ideal) x wq wk wv wo = fun _ => 1#1) :
    (∀ i, Cert.QSpec.IsReal (x i)) ∧ (∀ i, Cert.QSpec.IsReal (wq i)) ∧ (∀ i, Cert.QSpec.IsReal (wk i))
      ∧ (∀ i, Cert.QSpec.IsReal (wv i)) ∧ (∀ i, Cert.QSpec.IsReal (wo i)) := by
  have h0 := congrFun h ValueIdx.ix0
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => IsReal.of_ne (all_finite x _ _ _ _ e0 i), fun i => IsReal.of_ne (all_finite wq _ _ _ _ e1 i),
    fun i => IsReal.of_ne (all_finite wk _ _ _ _ e2 i), fun i => IsReal.of_ne (all_finite wv _ _ _ _ e3 i),
    fun i => IsReal.of_ne (all_finite wo _ _ _ _ e4 i)⟩

end Cert.PreReal
-- ==== Proof.lean ====
/-
  A quaternion attention layer: one kernel against its reference, on the extended reals.

  Every row of the input is treated alone. A row of width 1024 is 256 quaternions (four quarters: real, i, j, k).
  A quaternion dense layer multiplies the row, as a vector of quaternions, by a matrix of quaternions given as four
  real 256 × 256 matrices. Keys, scaled queries and values are three such layers of the row; the attention row is
  the quaternion product of queries and keys with every quaternion divided by its length (the square root of its
  squared length plus a small constant); the output row is a fourth layer of the quaternion product of the
  attention row with the values.

  The reference computes each layer as sixteen 256-wide products combined with the signs of the quaternion product
  and normalises by a division by the square root. The kernel computes each layer as ONE 1024-wide product with a
  1024 × 1024 matrix that the program builds beforehand from signed copies of the four small matrices, and
  normalises by a product with the reciprocal square root; it works on blocks of 512 rows, one block per grid point.

  The two agree when every input entry is a real number, which the precondition says: a 1024-term sum splits into
  four 256-term sums; a product with a negated entry is the negated product; a sum of negated real terms is the
  negated sum (false at ⊤ + ⊥, hence the precondition); and for a positive real s, a·(1/√s) = a/√s.
  The modules: QSpec (the row-wise functions), QLaws (the laws above), RefRead (the reference's two results are the
  specification's arrays), FrameBits / FrameIdeal (the kernel program runs to its end at either reading and leaves its
  arguments as they were), KHost (the block matrices the program builds), KPay and KBlock (what one grid point
  computes), KValue (the kernel's two results are the specification's arrays), PreReal (the precondition read back).
-/
import proofs.«104706_j62654982914287_2_alg».proof.Defs
import proofs.«104706_j62654982914287_2_alg».proof.Proof.Gen.Kernel
import proofs.«104706_j62654982914287_2_alg».proof.Proof.Gen.KernelIdeal
import proofs.«104706_j62654982914287_2_alg».proof.Proof.Gen.ReferenceIdeal
import proofs.«104706_j62654982914287_2_alg».proof.Proof.Gen.Pre_finite_inputs
import proofs.«104706_j62654982914287_2_alg».proof.Proof.FrameBits
import proofs.«104706_j62654982914287_2_alg».proof.Proof.FrameIdeal
import proofs.«104706_j62654982914287_2_alg».proof.Proof.KValue
import proofs.«104706_j62654982914287_2_alg».proof.Proof.RefRead
import proofs.«104706_j62654982914287_2_alg».proof.Proof.PreReal

noncomputable section

namespace Cert.Proof

open Idealize.ShloMosaic Idealize.SL.Sem

/-- The kernel program, read at the machine's words, runs to its end and leaves its arguments as they were. -/
theorem frame_k : Cert.frame_Kernel := fun m ρ _ => Cert.Kernel.Hand.frame m ρ

/-- The same program read at the extended reals does too. -/
theorem frame_ki : Cert.frame_KernelIdeal := fun m ρ _ => Cert.KernelIdeal.Hand.frame m ρ

/-- The reference runs to its end and leaves its arguments as they were: its run, with the results dropped. -/
theorem frame_ri : Cert.frame_ReferenceIdeal := fun m ρ _ =>
  (θ_run Cert.ReferenceIdeal.defs _ _).mono (fun _ h c => (h c).2.2) (Cert.ReferenceIdeal.RefRead.run m ρ)

/-- The idealized kernel is the kernel's own text read at the extended reals: nothing was rewritten. -/
theorem preserves : Cert.preserves_Kernel_KernelIdeal := trivial

/-- From memories that agree on the arguments, whose entries the precondition makes real numbers, both programs
    end with the specification's output array and attention array of the arguments. -/
theorem algebraic : Cert.algebraic_KernelIdeal_ReferenceIdeal := by
  intro m ρ m' ρ' hpre hagree
  have hreal := fun c => Cert.PreReal.entries_real _ _ _ _ _ (hpre c)
  refine ⟨_, _, Cert.KernelIdeal.KValue.run m ρ hreal, ?_⟩
  refine (θ_run Cert.ReferenceIdeal.defs _ _).mono (fun _ h c => ?_) (Cert.ReferenceIdeal.RefRead.run m' ρ')
  obtain ⟨a0, a1, a2, a3, a4⟩ := hagree c
  obtain ⟨hy, hatt, k0, k1, k2, k3, k4⟩ := h c
  exact ⟨by rw [hy, a0, a1, a2, a3, a4], by rw [hatt, a0, a1, a2], k0, k1, k2, k3, k4⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
